-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x128 : Shape := ⟨2, ![256, 128]⟩
abbrev S128 : Shape := ⟨1, ![128]⟩
abbrev S800000 : Shape := ⟨1, ![800000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S800000 : S_.BroadcastsInDim S800000 (![] : Fin 0 → Fin S800000.rank)
  reducesTo_S800000_S_d0 : S800000.ReducesTo [0] S_

variable [Facts]

def fn_part2 {F : FTy → Type} [FloatOps F] (main_arg7 : FVec F S128 .f32) (main_arg8 : FVec F S128 .f32) (main_arg11 : FVec F S800000 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S800000 .f32 := Host.absf main_arg11
  let main_cst_16 : FVec F S_ .f32 := constant S_ .f32 0x7F800000#32
  let main_v45 : FVec F S800000 .f32 := broadcastInDim S800000 ![] bcast_S_S800000 main_cst_16
  let main_v46 : IVec S800000 1 := cmpf .olt main_v44 main_v45
  let main_c_17 : IVec S_ 1 := constantI S_ 1 1#1
  let main_v47 : IVec S_ 1 := (fun x v => Host.reduce IntOp.andi x v reducesTo_S800000_S_d0 h_S_) main_v46 main_c_17
  let main_v48 : IVec S_ 1 := andi main_v43 main_v47
  main_v48

def fn_part1 {F : FTy → Type} [FloatOps F] (main_arg4 : FVec F S128 .f32) (main_arg5 : FVec F S256x128 .f32) (main_arg6 : FVec F S128 .f32) (main_arg7 : FVec F S128 .f32) (main_arg8 : FVec F S128 .f32) (main_arg11 : FVec F S800000 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg11 main_v33

def fn {F : FTy → Type} [FloatOps F] (main_arg0 : FVec F S50000x256 .f32) (main_arg1 : FVec F S256x128 .f32) (main_arg2 : FVec F S128 .f32) (main_arg3 : FVec F S128 .f32) (main_arg4 : FVec F S128 .f32) (main_arg5 : FVec F S256x128 .f32) (main_arg6 : FVec F S128 .f32) (main_arg7 : FVec F S128 .f32) (main_arg8 : FVec F S128 .f32) (main_arg9 : IVec S800000 32) (main_arg10 : IVec S800000 32) (main_arg11 : FVec F S800000 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg11 main_v13 main_v16
-- ==== Kernel.lean ====
abbrev S50000x256 : Shape := ⟨2, ![50000, 256]⟩
abbrev S256x128 : Shape := ⟨2, ![256, 128]⟩
abbrev S128 : Shape := ⟨1, ![128]⟩
abbrev S800000 : Shape := ⟨1, ![800000]⟩
abbrev S1x128 : Shape := ⟨2, ![1, 128]⟩
abbrev S50000x128 : Shape := ⟨2, ![50000, 128]⟩
abbrev S1000x256 : Shape := ⟨2, ![1000, 256]⟩
abbrev S1000x128 : Shape := ⟨2, ![1000, 128]⟩
abbrev S1000 : Shape := ⟨1, ![1000]⟩
abbrev S1000x1 : Shape := ⟨2, ![1000, 1]⟩
abbrev S_ : Shape := ⟨0, ![]⟩
abbrev S800000x1 : Shape := ⟨2, ![800000, 1]⟩
abbrev S800000x128 : Shape := ⟨2, ![800000, 128]⟩

abbrev nBuf : Space → Nat
  | .hbm => 40
  | .vmem => 18
  | .smem => 0
  | _ => 0

abbrev bufTy : (tb : Table) → Fin (tcTables nBuf tb) → BufTy
  | .hbm, ⟨0, _⟩ => ⟨S50000x256, .f32⟩
  | .hbm, ⟨1, _⟩ => ⟨S256x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S800000, .i32⟩
  | .hbm, ⟨10, _⟩ => ⟨S800000, .i32⟩
  | .hbm, ⟨11, _⟩ => ⟨S800000, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S1x128, .f32⟩
  | .hbm, ⟨16, _⟩ => ⟨S1x128, .f32⟩
  | .hbm, ⟨17, _⟩ => ⟨S1x128, .f32⟩
  | .hbm, ⟨18, _⟩ => ⟨S50000x128, .f32⟩
  | .hbm, ⟨19, _⟩ => ⟨S50000x128, .f32⟩
  | .hbm, ⟨20, _⟩ => ⟨S50000x128, .bf16⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .bf16⟩
  | .hbm, ⟨30, _⟩ => ⟨S800000x128, .f32⟩
  | .hbm, ⟨31, _⟩ => ⟨S800000x1, .f32⟩
  | .hbm, ⟨32, _⟩ => ⟨S800000x128, .f32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S50000x128, .f32⟩
  | .hbm, ⟨39, _⟩ => ⟨S50000x256, .f32⟩
  | .local _ .vmem, ⟨0, _⟩ => ⟨S1000x256, .f32⟩
  | .local _ .vmem, ⟨1, _⟩ => ⟨S1000x256, .f32⟩
  | .local _ .vmem, ⟨2, _⟩ => ⟨S256x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S256x128, .f32⟩
  | .local _ .vmem, ⟨7, _⟩ => ⟨S1000x128, .f32⟩
  | .local _ .vmem, ⟨8, _⟩ => ⟨S1000x128, .f32⟩
  | .local _ .vmem, ⟨9, _⟩ => ⟨S1000x128, .f32⟩
  | .local _ .vmem, ⟨10, _⟩ => ⟨S1000x128, .f32⟩
  | .local _ .vmem, ⟨11, _⟩ => ⟨S1000x128, .f32⟩
  | .local _ .vmem, ⟨12, _⟩ => ⟨S1000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1000x128, .f32⟩
  | .local _ .vmem, ⟨17, _⟩ => ⟨S1000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S128_S1x128 : S128.ShapeCasts S1x128
  inb_S1000x256_S1000x256_0_0 : ∀ a, (![0, 0] : Fin 2 → Nat) a + S1000x256.size a ≤ S1000x256.size a
  h_S1000x256 : 0 < S1000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  reduces_S1000x128_S1000 : S1000x128.Reduces [1] S1000
  shapeCasts_S1000_S1000x1 : S1000.ShapeCasts S1000x1
  broadcasts_S1000x1_S1000x128 : S1000x1.Broadcasts S1000x128
  inb_S1000x128_S1000x128_0_0 : ∀ a, (![0, 0] : Fin 2 → Nat) a + S1000x128.size a ≤ S1000x128.size a
  h_S1000x128 : 0 < S1000x128.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S1000x128_S1000x128 : S1000x128.ShapeCasts S1000x128
  concatenates_S50000x128_S50000x128_S50000x256_d1 : Shape.Concatenates [S50000x128, S50000x128] S50000x256 1
  dot_S1000x256_S256x128_S1000x128_1_0_0_1_n_n_wf : DotDims.WF S1000x256 S256x128 S1000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S50000x256.size a
  hwx0_0 : ∀ i : grid0.Coords, EltTy.bits .f32 = 32 ∨ (Rect.block (s := S50000x256) S1000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1000x128.size a ≤ S50000x128.size a
  hwx0_6 : ∀ i : grid0.Coords, EltTy.bits .f32 = 32 ∨ (Rect.block (s := S50000x128) S1000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1000x128.size a ≤ S50000x128.size a
  hwx0_7 : ∀ i : grid0.Coords, EltTy.bits .f32 = 32 ∨ (Rect.block (s := S50000x128) S1000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S50000x128.size a
  hwx1_0 : ∀ i : grid1.Coords, EltTy.bits .f32 = 32 ∨ (Rect.block (s := S50000x128) S1000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x128.size a ≤ S50000x128.size a
  hwx1_4 : ∀ i : grid1.Coords, EltTy.bits .f32 = 32 ∨ (Rect.block (s := S50000x128) S1000x128.size (cc1_transform_4 i) (hinb1_4 i)).WholeWords (EltTy.packing .f32)

variable [Facts₀]

def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S1000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S1000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v21) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x256 : Shape := ⟨2, ![50000, 256]⟩
abbrev S256x128 : Shape := ⟨2, ![256, 128]⟩
abbrev S128 : Shape := ⟨1, ![128]⟩
abbrev S800000 : Shape := ⟨1, ![800000]⟩
abbrev S800000x1 : Shape := ⟨2, ![800000, 1]⟩
abbrev S_ : Shape := ⟨0, ![]⟩
abbrev S800000x256 : Shape := ⟨2, ![800000, 256]⟩
abbrev S50000x128 : Shape := ⟨2, ![50000, 128]⟩
abbrev S1x128 : Shape := ⟨2, ![1, 128]⟩
abbrev S50000 : Shape := ⟨1, ![50000]⟩
abbrev S50000x1 : Shape := ⟨2, ![50000, 1]⟩

abbrev nBuf : Space → Nat
  | .hbm => 131
  | .vmem => 0
  | .smem => 0
  | _ => 0

abbrev hbmTy0_0 (i : Nat) : BufTy := match i % 128 with
  | 0 => ⟨S50000x256, .f32⟩
  | 1 => ⟨S256x128, .f32⟩
  | 2 => ⟨S128, .f32⟩
  | 3 => ⟨S128, .f32⟩
  | 4 => ⟨S128, .f32⟩
  | 5 => ⟨S256x128, .f32⟩
  | 6 => ⟨S128, .f32⟩
  | 7 => ⟨S128, .f32⟩
  | 8 => ⟨S128, .f32⟩
  | 9 => ⟨S800000, .i32⟩
  | 10 => ⟨S800000, .i32⟩
  | 11 => ⟨S800000, .f32⟩
  | 12 => ⟨S800000x1, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x256, .f32⟩
  | 22 => ⟨S800000x256, .f32⟩
  | 23 => ⟨S800000x256, .f32⟩
  | 24 => ⟨S_, .f32⟩
  | 25 => ⟨S50000x256, .f32⟩
  | 26 => ⟨S800000x1, .i32⟩
  | 27 => ⟨S50000x256, .f32⟩
  | 28 => ⟨S50000x128, .f32⟩
  | 29 => ⟨S1x128, .f32⟩
  | 30 => ⟨S50000x128, .f32⟩
  | 31 => ⟨S50000x128, .f32⟩
  | 32 => ⟨S_, .f32⟩
  | 33 => ⟨S50000x128, .f32⟩
  | 34 => ⟨S50000x128, .f32⟩
  | 35 => ⟨S_, .f32⟩
  | 36 => ⟨S50000, .f32⟩
  | 37 => ⟨S50000x1, .f32⟩
  | 38 => ⟨S_, .f32⟩
  | 39 => ⟨S50000x1, .f32⟩
  | 40 => ⟨S50000x1, .f32⟩
  | 41 => ⟨S_, .i32⟩
  | 42 => ⟨S_, .f32⟩
  | 43 => ⟨S50000, .f32⟩
  | 44 => ⟨S50000x1, .f32⟩
  | 45 => ⟨S_, .f32⟩
  | 46 => ⟨S50000x1, .f32⟩
  | 47 => ⟨S50000x1, .f32⟩
  | 48 => ⟨S50000x128, .f32⟩
  | 49 => ⟨S50000x128, .f32⟩
  | 50 => ⟨S50000x128, .f32⟩
  | 51 => ⟨S_, .f32⟩
  | 52 => ⟨S_, .f32⟩
  | 53 => ⟨S_, .f32⟩
  | 54 => ⟨S_, .f32⟩
  | 55 => ⟨S50000, .f32⟩
  | 56 => ⟨S50000x1, .f32⟩
  | 57 => ⟨S50000x1, .f32⟩
  | 58 => ⟨S50000x1, .f32⟩
  | 59 => ⟨S_, .f32⟩
  | 60 => ⟨S_, .i1⟩
  | 61 => ⟨S_, .f32⟩
  | 62 => ⟨S_, .f32⟩
  | 63 => ⟨S50000x1, .f32⟩
  | 64 => ⟨S50000x1, .f32⟩
  | 65 => ⟨S_, .f32⟩
  | 66 => ⟨S50000x1, .f32⟩
  | 67 => ⟨S50000x1, .f32⟩
  | 68 => ⟨S50000x128, .f32⟩
  | 69 => ⟨S50000x128, .f32⟩
  | 70 => ⟨S1x128, .f32⟩
  | 71 => ⟨S50000x128, .f32⟩
  | 72 => ⟨S50000x128, .f32⟩
  | 73 => ⟨S50000x1, .f32⟩
  | 74 => ⟨S50000x128, .f32⟩
  | 75 => ⟨S50000x128, .f32⟩
  | 76 => ⟨S1x128, .f32⟩
  | 77 => ⟨S50000x128, .f32⟩
  | 78 => ⟨S50000x128, .f32⟩
  | 79 => ⟨S50000x128, .f32⟩
  | 80 => ⟨S1x128, .f32⟩
  | 81 => ⟨S50000x128, .f32⟩
  | 82 => ⟨S50000x128, .f32⟩
  | 83 => ⟨S_, .f32⟩
  | 84 => ⟨S50000x128, .f32⟩
  | 85 => ⟨S50000x128, .f32⟩
  | 86 => ⟨S_, .f32⟩
  | 87 => ⟨S50000, .f32⟩
  | 88 => ⟨S50000x1, .f32⟩
  | 89 => ⟨S_, .f32⟩
  | 90 => ⟨S50000x1, .f32⟩
  | 91 => ⟨S50000x1, .f32⟩
  | 92 => ⟨S_, .i32⟩
  | 93 => ⟨S_, .f32⟩
  | 94 => ⟨S50000, .f32⟩
  | 95 => ⟨S50000x1, .f32⟩
  | 96 => ⟨S_, .f32⟩
  | 97 => ⟨S50000x1, .f32⟩
  | 98 => ⟨S50000x1, .f32⟩
  | 99 => ⟨S50000x128, .f32⟩
  | 100 => ⟨S50000x128, .f32⟩
  | 101 => ⟨S50000x128, .f32⟩
  | 102 => ⟨S_, .f32⟩
  | 103 => ⟨S_, .f32⟩
  | 104 => ⟨S_, .f32⟩
  | 105 => ⟨S_, .f32⟩
  | 106 => ⟨S50000, .f32⟩
  | 107 => ⟨S50000x1, .f32⟩
  | 108 => ⟨S50000x1, .f32⟩
  | 109 => ⟨S50000x1, .f32⟩
  | 110 => ⟨S_, .f32⟩
  | 111 => ⟨S_, .i1⟩
  | 112 => ⟨S_, .f32⟩
  | 113 => ⟨S_, .f32⟩
  | 114 => ⟨S50000x1, .f32⟩
  | 115 => ⟨S50000x1, .f32⟩
  | 116 => ⟨S_, .f32⟩
  | 117 => ⟨S50000x1, .f32⟩
  | 118 => ⟨S50000x1, .f32⟩
  | 119 => ⟨S50000x128, .f32⟩
  | 120 => ⟨S50000x128, .f32⟩
  | 121 => ⟨S1x128, .f32⟩
  | 122 => ⟨S50000x128, .f32⟩
  | 123 => ⟨S50000x128, .f32⟩
  | 124 => ⟨S50000x1, .f32⟩
  | 125 => ⟨S50000x128, .f32⟩
  | 126 => ⟨S50000x128, .f32⟩
  | 127 => ⟨S1x128, .f32⟩
  | _ => ⟨S50000x256, .f32⟩

abbrev hbmTy0_1 (i : Nat) : BufTy := match i % 128 with
  | 0 => ⟨S50000x128, .f32⟩
  | 1 => ⟨S50000x128, .f32⟩
  | 2 => ⟨S50000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call0_cst : Ref sig .tc := ⟨.hbm, 32, rfl⟩
abbrev main_call0_v0 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_c_3 : Ref sig .tc := ⟨.hbm, 41, rfl⟩
abbrev main_call1_cst : Ref sig .tc := ⟨.hbm, 42, rfl⟩
abbrev main_call1_v0 : Ref sig .tc := ⟨.hbm, 43, rfl⟩
abbrev main_call1_v1 : Ref sig .tc := ⟨.hbm, 44, rfl⟩
abbrev main_call1_cst_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_v6 : Ref sig .tc := ⟨.hbm, 50, rfl⟩
abbrev main_call1_v7 : Ref sig .tc := ⟨.hbm, 51, rfl⟩
abbrev main_call1_cst_1 : Ref sig .tc := ⟨.hbm, 52, rfl⟩
abbrev main_call1_v8 : Ref sig .tc := ⟨.hbm, 53, rfl⟩
abbrev main_call1_cst_2 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_v12 : Ref sig .tc := ⟨.hbm, 58, rfl⟩
abbrev main_call1_cst_3 : Ref sig .tc := ⟨.hbm, 59, rfl⟩
abbrev main_call1_v13 : Ref sig .tc := ⟨.hbm, 60, rfl⟩
abbrev main_call1_cst_4 : Ref sig .tc := ⟨.hbm, 61, rfl⟩
abbrev main_call1_call0_v0 : Ref sig .tc := ⟨.hbm, 62, rfl⟩
abbrev main_call1_call0_v1 : Ref sig .tc := ⟨.hbm, 63, rfl⟩
abbrev main_v22 : Ref sig .tc := ⟨.hbm, 64, rfl⟩
abbrev main_cst_4 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_call2_cst : Ref sig .tc := ⟨.hbm, 83, rfl⟩
abbrev main_call2_v0 : Ref sig .tc := ⟨.hbm, 84, rfl⟩
abbrev main_v40 : Ref sig .tc := ⟨.hbm, 85, rfl⟩
abbrev main_cst_5 : Ref sig .tc := ⟨.hbm, 86, rfl⟩
abbrev main_v41 : Ref sig .tc := ⟨.hbm, 87, rfl⟩
abbrev main_v42 : Ref sig .tc := ⟨.hbm, 88, rfl⟩
abbrev main_cst_6 : Ref sig .tc := ⟨.hbm, 89, rfl⟩
abbrev main_v43 : Ref sig .tc := ⟨.hbm, 90, rfl⟩
abbrev main_v44 : Ref sig .tc := ⟨.hbm, 91, rfl⟩
abbrev main_c_7 : Ref sig .tc := ⟨.hbm, 92, rfl⟩
abbrev main_call3_cst : Ref sig .tc := ⟨.hbm, 93, rfl⟩
abbrev main_call3_v0 : Ref sig .tc := ⟨.hbm, 94, rfl⟩
abbrev main_call3_v1 : Ref sig .tc := ⟨.hbm, 95, rfl⟩
abbrev main_call3_cst_0 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_call3_v5 : Ref sig .tc := ⟨.hbm, 100, rfl⟩
abbrev main_call3_v6 : Ref sig .tc := ⟨.hbm, 101, rfl⟩
abbrev main_call3_v7 : Ref sig .tc := ⟨.hbm, 102, rfl⟩
abbrev main_call3_cst_1 : Ref sig .tc := ⟨.hbm, 103, rfl⟩
abbrev main_call3_v8 : Ref sig .tc := ⟨.hbm, 104, rfl⟩
abbrev main_call3_cst_2 : Ref sig .tc := ⟨.hbm, 105, rfl⟩
abbrev main_call3_v9 : Ref sig .tc := ⟨.hbm, 106, rfl⟩
abbrev main_call3_v10 : Ref sig .tc := ⟨.hbm, 107, rfl⟩
abbrev main_call3_v11 : Ref sig .tc := ⟨.hbm, 108, rfl⟩
abbrev main_call3_v12 : Ref sig .tc := ⟨.hbm, 109, rfl⟩
abbrev main_call3_cst_3 : Ref sig .tc := ⟨.hbm, 110, rfl⟩
abbrev main_call3_v13 : Ref sig .tc := ⟨.hbm, 111, rfl⟩
abbrev main_call3_cst_4 : Ref sig .tc := ⟨.hbm, 112, rfl⟩
abbrev main_call3_call0_v0 : Ref sig .tc := ⟨.hbm, 113, rfl⟩
abbrev main_call3_call0_v1 : Ref sig .tc := ⟨.hbm, 114, rfl⟩
abbrev main_v45 : Ref sig .tc := ⟨.hbm, 115, rfl⟩
abbrev main_cst_8 : Ref sig .tc := ⟨.hbm, 116, rfl⟩
abbrev main_v46 : Ref sig .tc := ⟨.hbm, 117, rfl⟩
abbrev main_v47 : Ref sig .tc := ⟨.hbm, 118, rfl⟩
abbrev main_v48 : Ref sig .tc := ⟨.hbm, 119, rfl⟩
abbrev main_v49 : Ref sig .tc := ⟨.hbm, 120, rfl⟩
abbrev main_v50 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_v59 : Ref sig .tc := ⟨.hbm, 130, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KernRun.lean ====
/-
  The idealized kernel program's run with its result named: every weakly fair execution of the program ends, nothing
  faulting, with the result buffer holding what the last host operation leaves over the second region's exit contents,
  and the twelve arguments as launched. The contents at each boundary of the program are a fold from the launch memory:
  a stretch of host operations applies them in order, a region replaces its windows' arrays by what its write-backs leave.
-/
import proofs.«170415_j34849364640474_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the launch over the program's five segments, the last thread state read against the final state; the
    result buffer is an unscoped buffer, so it ends at the last boundary's contents. -/
theorem run_result : θ_run defs (onTc (τ := τ) (main (F := F))) ⟨m, fun _ => 0, ρ⟩ (fun r => ∀ c : Dev nD,
      r.2.mem ((c.tc : Thread nD τ).loc main_v23) = W5 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v23 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c)⟩)

end Cert.KernelIdeal.Gen

end
-- ==== Proof.Spec.lean ====
/-
  The functions both programs compute, entry by entry, on the extended reals.

  A row of 128 pre-activations is clipped below at zero; its mean is the sum of the clipped entries over 128, its
  variance the sum of the squared deviations over 128; each clipped entry has the mean taken off, is multiplied by the
  scale, then by the reciprocal square root of the variance plus a small constant, and the offset is added. The dense
  pre-activation of node r at feature c is the inner product of row r of the features with column c of the weights, plus
  the bias. The sparse aggregation of an array Z of node rows sends to node r the sum, over the edges whose signed row
  index is r, of the edge's value times row (the edge's clamped column index) of Z.
-/
import Idealize.ShloMosaic.PureOps.Ideal
import Idealize.ShloMosaic.PureOps.Ideal.Laws
import Idealize.ShloMosaic.Lib.ValueIdx

noncomputable section

open scoped BigOperators

namespace Cert.GnnSpec

open Idealize.ShloMosaic Idealize.ShloMosaic.ValueIdx

/-- The float literals, kept as their binary words: zero, 128, and the small constant added to the variance. -/
def z0 : EReal := Ideal.ofBits .f32 0x00000000#32
def c128 : EReal := Ideal.ofBits .f32 0x43000000#32
def eps : EReal := Ideal.ofBits .f32 0x3089705F#32

/-- An entry clipped below at zero. -/
def clip (x : EReal) : EReal := max x z0

/-- The mean of a row of 128 entries. -/
def rowMean (h : Fin 128 → EReal) : EReal := Ideal.div (∑ j : Fin 128, h j) c128

/-- The variance of a row of 128 entries about its mean. -/
def rowVar (h : Fin 128 → EReal) : EReal :=
  Ideal.div (∑ j : Fin 128, (h j - rowMean h) * (h j - rowMean h)) c128

/-- The normalised row at entry `c`: ((h c − mean) · s c) · rsqrt (variance + ε) + o c. -/
def normRow (h s o : Fin 128 → EReal) (c : Fin 128) : EReal :=
  (h c - rowMean h) * s c * Ideal.rsqrt (rowVar h + eps) + o c

/-- The feature transform of one row of pre-activations: clip, then normalise. -/
def featRow (h s o : Fin 128 → EReal) (c : Fin 128) : EReal :=
  normRow (fun j => clip (h j)) s o c

/-- The inner product of row `r` of an [N, 256] array with column `c` of a [256, 128] array. -/
def matRow {N : Nat} (X : (⟨2, ![N, 256]⟩ : Shape).Idx → EReal) (W : (⟨2, ![256, 128]⟩ : Shape).Idx → EReal)
    (r : Fin N) (c : Fin 128) : EReal :=
  ∑ k : Fin 256, X (ix2 r k) * W (ix2 k c)

/-- The column index of an edge as both programs prepare it: a negative index has 50000 added. -/
def wrapCol (col : BitVec 32) : BitVec 32 :=
  Scalar.select (IntOp.cmpi .slt col 0#32) (IntOp.addi col 50000#32) col

/-- The node row an edge reads: its prepared column index read signed and clamped into [0, 49999]. -/
def srcRow (col : BitVec 32) : Fin 50000 :=
  ⟨min (wrapCol col).toInt.toNat (50000 - 1), by omega⟩

/-- The sparse aggregation of node rows `Z` (any width): to node `r`, the sum over the edges whose signed row index
    is `r` of the edge's value times row `srcRow` of `Z`. -/
def spmm {n : Nat} (row col : (⟨1, ![800000]⟩ : Shape).Idx → BitVec 32) (val : (⟨1, ![800000]⟩ : Shape).Idx → EReal)
    (Z : Fin 50000 → Fin n → EReal) (r : Fin 50000) (c : Fin n) : EReal :=
  z0 + ∑ e ∈ Finset.univ.filter (fun e : Fin 800000 => (row (ix1 e)).toInt = (r.val : ℤ)),
    val (ix1 e) * Z (srcRow (col (ix1 e))) c

/-- The first half of the result: the feature transform of X·W0 + b0. -/
def half0 (X : (⟨2, ![50000, 256]⟩ : Shape).Idx → EReal) (W0 : (⟨2, ![256, 128]⟩ : Shape).Idx → EReal)
    (b0 s0 o0 : (⟨1, ![128]⟩ : Shape).Idx → EReal) (r : Fin 50000) (c : Fin 128) : EReal :=
  featRow (fun j => matRow X W0 r j + b0 (ix1 j)) (fun j => s0 (ix1 j)) (fun j => o0 (ix1 j)) c

/-- The second half as the kernel computes it: the feature transform of A·(X·W1) + b1. -/
def half1 (X : (⟨2, ![50000, 256]⟩ : Shape).Idx → EReal) (W1 : (⟨2, ![256, 128]⟩ : Shape).Idx → EReal)
    (b1 s1 o1 : (⟨1, ![128]⟩ : Shape).Idx → EReal) (row col : (⟨1, ![800000]⟩ : Shape).Idx → BitVec 32)
    (val : (⟨1, ![800000]⟩ : Shape).Idx → EReal) (r : Fin 50000) (c : Fin 128) : EReal :=
  featRow (fun j => spmm row col val (fun i k => matRow X W1 i k) r j + b1 (ix1 j)) (fun j => s1 (ix1 j)) (fun j => o1 (ix1 j)) c

/-- The second half as the reference computes it: the feature transform of (A·X)·W1 + b1. -/
def half1' (X : (⟨2, ![50000, 256]⟩ : Shape).Idx → EReal) (W1 : (⟨2, ![256, 128]⟩ : Shape).Idx → EReal)
    (b1 s1 o1 : (⟨1, ![128]⟩ : Shape).Idx → EReal) (row col : (⟨1, ![800000]⟩ : Shape).Idx → BitVec 32)
    (val : (⟨1, ![800000]⟩ : Shape).Idx → EReal) (r : Fin 50000) (c : Fin 128) : EReal :=
  featRow (fun j => (∑ k : Fin 256, spmm row col val (fun i k' => X (ix2 i k')) r k * W1 (ix2 k j)) + b1 (ix1 j))
    (fun j => s1 (ix1 j)) (fun j => o1 (ix1 j)) c

end Cert.GnnSpec

end
-- ==== Proof.LibMatDot.lean ====
/-
  The product of an m×k matrix by a k×n matrix, read at one entry, at the ideal values: both the vector unit's
  matrix product into a zero accumulator and the host's `dot_general` with the dimension numbers
  (contracting [1]×[0], no batch axis) are the sum over the contracted coordinate of the products of the entries,
  `∑ c, A (a, c) * B (c, b)`, whatever the element formats of the operands and whatever proof of well-formedness
  the record of dimension numbers carries. Also three broadcasts read at an entry: a column `[a, 1]` laid across
  `b` columns (the vector unit's and the host's), a vector of `n` entries laid along every row through a one-row
  matrix (the host's two-step form), and a scalar constant laid over a shape.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

open scoped BigOperators

namespace Cert.Lib.MatDot

open Idealize.ShloMosaic Idealize.ShloMosaic.ValueIdx

variable {m k n : Nat} {φ₁ φ₂ : FTy}

/-- The left operand's entry that output entry `(a, b)` meets at contraction position `c` is `(a, c)`. -/
theorem lhsIdx_eq (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c) = ix2 a c := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

/-- The right operand's entry there is `(c, b)`. -/
theorem rhsIdx_eq (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- The host's matrix product at entry `(a, b)` is `∑ c, A (a, c) * B (c, b)`. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec _ A B (ix2 a b) = _
  rw [Ideal.dotGeneral_apply, ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_eq w a b c, rhsIdx_eq w a b c]

/-- The vector unit's matrix product into the zero accumulator at entry `(a, b)` is the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B (constant (F := Ideal) ⟨2, ![m, n]⟩ .f32 0x00000000#32) (ix2 a b) = _
  rw [Ideal.matmul_constant_zero_apply, ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_eq w a b c, rhsIdx_eq w a b c]

variable {α : Type}

/-- A column `[a, 1]` laid across `b` columns by the vector unit's broadcast reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` along axes `[0, 1]` reads the same. -/
theorem broadcastInDim_col_apply {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A vector of `n` entries made a one-row matrix along axis 1 by the host reads, at `(u, t)`, the vector at `t`. -/
theorem broadcastInDim_vec_oneRow_apply {n : ℕ} (h : (⟨1, ![n]⟩ : Shape).BroadcastsInDim ⟨2, ![1, n]⟩ ![1])
    (x : (⟨1, ![n]⟩ : Shape).Idx → α) (u : Fin 1) (t : Fin n) :
    broadcastInDim ⟨2, ![1, n]⟩ ![1] h x (ix2 u t) = x (ix1 t) := by
  refine broadcastInDim_apply ![1] h x (ix2 u t) (ix1 t) fun ax => ?_
  match ax with
  | ⟨0, _⟩ =>
    show t.val = if n = 1 then 0 else t.val
    split
    · have := t.isLt; omega
    · rfl

/-- So the host's two-step row broadcast (a vector to one row, the row down `m` rows) reads, at `(r, t)`, the vector at `t`. -/
theorem broadcastInDim_vec_rows_apply {m n : ℕ} (h1 : (⟨1, ![n]⟩ : Shape).BroadcastsInDim ⟨2, ![1, n]⟩ ![1])
    (h2 : (⟨2, ![1, n]⟩ : Shape).BroadcastsInDim ⟨2, ![m, n]⟩ ![0, 1]) (x : (⟨1, ![n]⟩ : Shape).Idx → α) (r : Fin m) (t : Fin n) :
    broadcastInDim ⟨2, ![m, n]⟩ ![0, 1] h2 (broadcastInDim ⟨2, ![1, n]⟩ ![1] h1 x) (ix2 r t) = x (ix1 t) :=
  (Idealize.ShloMosaic.broadcastInDim_oneRow_apply h2 _ r t).trans (broadcastInDim_vec_oneRow_apply h1 x 0 t)

/-- The vector unit's form of the same: the vector cast to one row, the row laid down `m` rows. -/
theorem broadcastTo_vec_rows_apply {m n : ℕ} (h1 : (⟨1, ![n]⟩ : Shape).ShapeCasts ⟨2, ![1, n]⟩)
    (h2 : (⟨2, ![1, n]⟩ : Shape).Broadcasts ⟨2, ![m, n]⟩) (x : (⟨1, ![n]⟩ : Shape).Idx → α) (r : Fin m) (t : Fin n) :
    broadcastTo ⟨2, ![m, n]⟩ (shapeCast ⟨2, ![1, n]⟩ x h1) h2 (ix2 r t) = x (ix1 t) :=
  (broadcastTo_1b_ab_apply _ h2 r t).trans (shapeCast_a_1a_apply x h1 0 t)

end Cert.Lib.MatDot

end
-- ==== Proof.LibRowGather.lean ====
/-
  A gather of whole rows: from an array of N rows and n columns, the rows named by E start indices
  (dimension numbers: offset axis [1], collapsed slice axis [0], start index map [0], index vector on axis 1,
  slice sizes [1, n]). Entry (e, c) of the result is the operand's entry (r, c), where r is start index e read
  as a signed integer and clamped into [0, N - 1], as a gather clamps every start index.
-/
import Idealize.ShloMosaic.PureOps.Ideal
import Idealize.ShloMosaic.Lib.ValueIdx

noncomputable section

namespace Cert.Lib.RowGather

open Idealize.ShloMosaic Idealize.ShloMosaic.ValueIdx

variable {α : Type}

/-- The dimension numbers of a gather of whole rows, for an operand `[N, n]`, start indices `[E, 1]` and a
    result `[E, n]`. -/
abbrev rowDims (N E n : Nat)
    (wf : GatherDims.WF ⟨2, ![N, n]⟩ ⟨2, ![E, 1]⟩ ⟨2, ![E, n]⟩ [1] [0] [] [0] [] 1 ![1, n]) :
    GatherDims ⟨2, ![N, n]⟩ ⟨2, ![E, 1]⟩ ⟨2, ![E, n]⟩ :=
  ⟨[1], [0], [], [], [0], 1, ![1, n], wf⟩

section
variable {N E n w : Nat}
  (wf : GatherDims.WF ⟨2, ![N, n]⟩ ⟨2, ![E, 1]⟩ ⟨2, ![E, n]⟩ [1] [0] [] [0] [] 1 ![1, n])
  (idx : IVec ⟨2, ![E, 1]⟩ w) (e : Fin E) (c : Fin n)

/-- On the row axis the operand coordinate is the clamped start index: no batching and no offset part. -/
theorem coord0 :
    (rowDims N E n wf).start (ix2 e c) idx 0 + (rowDims N E n wf).batchCoord (ix2 e c) 0
      + (rowDims N E n wf).offCoord (ix2 e c) 0 = min (idx (ix2 e (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N E n wf).startIndexMap from List.mem_singleton.mpr rfl)]
  have hsi : (rowDims N E n wf).siIdx (ix2 e c) ⟨List.idxOf (0 : Fin 2) (rowDims N E n wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the column axis the operand coordinate is the result's column: no start and no batching part. -/
theorem coord1 :
    (rowDims N E n wf).start (ix2 e c) idx 1 + (rowDims N E n wf).batchCoord (ix2 e c) 1
      + (rowDims N E n wf).offCoord (ix2 e c) 1 = c.val := by
  rw [GatherDims.batchCoord_eq_zero _ _ _ List.not_mem_nil]
  have h1 : (1 : Fin 2) ∉ ([0] : List (Fin 2)) := by decide
  have hs : (rowDims N E n wf).start (ix2 e c) idx 1 = 0 := by
    unfold GatherDims.start
    rw [dif_neg (show (1 : Fin 2) ∉ (rowDims N E n wf).startIndexMap from h1)]
  rw [hs]
  simp only [Nat.add_zero, Nat.zero_add]
  have hk : (1 : Fin 2) ∈ (rowDims N E n wf).sKept :=
    (GatherDims.mem_sKept _ _).mpr ⟨h1, List.not_mem_nil⟩
  unfold GatherDims.offCoord
  rw [dif_pos hk]
  rfl

end

/-- THE ROW GATHER READ AT `(e, c)`: the operand at row `idx[e, 0]` (read signed, clamped into `[0, N − 1]`),
    column `c`. -/
theorem rowGather_apply {N E n w : Nat} (hN : 0 < N)
    (wf : GatherDims.WF ⟨2, ![N, n]⟩ ⟨2, ![E, 1]⟩ ⟨2, ![E, n]⟩ [1] [0] [] [0] [] 1 ![1, n])
    (x : (⟨2, ![N, n]⟩ : Shape).Idx → α) (idx : IVec ⟨2, ![E, 1]⟩ w) (e : Fin E) (c : Fin n) :
    Host.gather (⟨[1], [0], [], [], [0], 1, ![1, n], wf⟩ : GatherDims ⟨2, ![N, n]⟩ ⟨2, ![E, 1]⟩ ⟨2, ![E, n]⟩) x idx (ix2 e c)
      = x (ix2 ⟨min (idx (ix2 e (0 : Fin 1))).toInt.toNat (N - 1), by omega⟩ c) := by
  show Host.gather (rowDims N E n wf) x idx (ix2 e c) = _
  unfold Host.gather
  congr 1
  funext a
  refine Fin.ext ?_
  match a with
  | ⟨0, _⟩ => exact coord0 wf idx e c
  | ⟨1, _⟩ => exact coord1 wf idx e c

end Cert.Lib.RowGather

end
-- ==== Proof.LibRowScatterAdd.lean ====
/-
  The accumulating scatter of E rows into an array of N rows and n columns, at the ideal values (dimension
  numbers: update window axis [1], inserted window axis [0], scatter axis map [0], index vector on axis 1).
  Update entry (e, c') lands at operand entry (r, c) exactly when scatter index e, read as a signed integer, is r
  and c' = c; an index outside [0, N) drops its row. So entry (r, c) of the result is the operand's entry plus
  the sum of the update entries (e, c) over the rows e whose scatter index is r.
-/
import Idealize.ShloMosaic.PureOps.Ideal
import Idealize.ShloMosaic.PureOps.Contract
import Idealize.ShloMosaic.Lib.ValueIdx

noncomputable section

open scoped BigOperators

namespace Cert.Lib.RowScatterAdd

open Idealize.ShloMosaic Idealize.ShloMosaic.ValueIdx

/-- The dimension numbers of a scatter of whole rows, for an operand `[N, n]`, scatter indices `[E, 1]` and
    updates `[E, n]`. -/
abbrev rowDims (N E n : Nat) (wf : ScatterDims.WF ⟨2, ![N, n]⟩ ⟨2, ![E, 1]⟩ ⟨2, ![E, n]⟩ [1] [0] [0] 1) :
    ScatterDims ⟨2, ![N, n]⟩ ⟨2, ![E, 1]⟩ ⟨2, ![E, n]⟩ :=
  ⟨[1], [0], [0], 1, wf⟩

section
variable {N E n w : Nat} (wf : ScatterDims.WF ⟨2, ![N, n]⟩ ⟨2, ![E, 1]⟩ ⟨2, ![E, n]⟩ [1] [0] [0] 1)
  (idx : IVec ⟨2, ![E, 1]⟩ w) (e : Fin E) (c' : Fin n)

/-- On the row axis the window starts at the scatter index, read signed. -/
theorem start0 : (rowDims N E n wf).start (ix2 e c') idx 0 = (idx (ix2 e (0 : Fin 1))).toInt := by
  unfold ScatterDims.start
  rw [dif_pos (show (0 : Fin 2) ∈ (rowDims N E n wf).scatterDimsToOperandDims from List.mem_singleton.mpr rfl)]
  have hsi : (rowDims N E n wf).siIdx (ix2 e c') ⟨List.idxOf (0 : Fin 2) (rowDims N E n wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at 0. -/
theorem start1 : (rowDims N E n wf).start (ix2 e c') idx 1 = 0 := by
  have h1 : (1 : Fin 2) ∉ ([0] : List (Fin 2)) := by decide
  unfold ScatterDims.start
  rw [dif_neg (show (1 : Fin 2) ∉ (rowDims N E n wf).scatterDimsToOperandDims from h1)]

/-- The row axis is an inserted window axis: its window coordinate is 0. -/
theorem window0 : (rowDims N E n wf).window (ix2 e c') 0 = 0 := by
  have h0 : (0 : Fin 2) ∉ (rowDims N E n wf).sKept := by
    show (0 : Fin 2) ∉ (List.finRange 2).filter (· ∉ ([0] : List (Fin 2)))
    decide
  unfold ScatterDims.window
  rw [dif_neg h0]

/-- The column axis carries the update's column. -/
theorem window1 : (rowDims N E n wf).window (ix2 e c') 1 = c'.val := by
  have h1 : (1 : Fin 2) ∈ (rowDims N E n wf).sKept := by
    show (1 : Fin 2) ∈ (List.finRange 2).filter (· ∉ ([0] : List (Fin 2)))
    decide
  unfold ScatterDims.window
  rw [dif_pos h1]
  rfl

/-- WHERE AN UPDATE ENTRY LANDS: entry `(e, c')` of the updates lands at `(r, c)` iff scatter index `e`, read signed,
    is `r` and `c' = c`. -/
theorem resultIdx?_eq_some_iff (r : Fin N) (c : Fin n) :
    (rowDims N E n wf).resultIdx? (ix2 e c') idx = some (ix2 r c)
      ↔ (idx (ix2 e (0 : Fin 1))).toInt = (r.val : ℤ) ∧ c' = c := by
  have hs0 := start0 wf idx e c'
  have hs1 := start1 wf idx e c'
  have hw0 := window0 wf e c'
  have hw1 := window1 wf e c'
  unfold ScatterDims.resultIdx?
  split
  · rename_i h
    rw [Option.some.injEq]
    constructor
    · intro hf
      have h0 := congrArg Fin.val (congrFun hf 0)
      have h1 := congrArg Fin.val (congrFun hf 1)
      have g0 := (h 0).1
      simp only [hs0, hw0, hs1, hw1] at h0 h1 g0
      refine ⟨?_, Fin.ext ?_⟩
      · have h0' : ((idx (ix2 e (0 : Fin 1))).toInt + ((0 : ℕ) : ℤ)).toNat = r.val := h0
        omega
      · have h1' : ((0 : ℤ) + ((c'.val : ℕ) : ℤ)).toNat = c.val := h1
        omega
    · rintro ⟨h0, rfl⟩
      funext a
      refine Fin.ext ?_
      match a with
      | ⟨0, _⟩ =>
        show ((rowDims N E n wf).start (ix2 e c') idx 0 + ((rowDims N E n wf).window (ix2 e c') 0 : ℕ)).toNat = r.val
        rw [hs0, hw0, h0]; simp
      | ⟨1, _⟩ =>
        show ((rowDims N E n wf).start (ix2 e c') idx 1 + ((rowDims N E n wf).window (ix2 e c') 1 : ℕ)).toNat = c'.val
        rw [hs1, hw1]; simp
  · rename_i h
    constructor
    · intro hf; cases hf
    · rintro ⟨h0, rfl⟩
      exfalso; apply h
      intro a
      match a with
      | ⟨0, _⟩ =>
        show 0 ≤ (rowDims N E n wf).start (ix2 e c') idx 0 + ((rowDims N E n wf).window (ix2 e c') 0 : ℕ)
          ∧ (rowDims N E n wf).start (ix2 e c') idx 0 + ((rowDims N E n wf).window (ix2 e c') 0 : ℕ) < ((N : ℕ) : ℤ)
        rw [hs0, hw0, h0]
        have := r.isLt
        omega
      | ⟨1, _⟩ =>
        show 0 ≤ (rowDims N E n wf).start (ix2 e c') idx 1 + ((rowDims N E n wf).window (ix2 e c') 1 : ℕ)
          ∧ (rowDims N E n wf).start (ix2 e c') idx 1 + ((rowDims N E n wf).window (ix2 e c') 1 : ℕ) < ((n : ℕ) : ℤ)
        rw [hs1, hw1]
        have := c'.isLt
        omega

end

/-- THE ROW SCATTER-ADD READ AT `(r, c)`: the operand's entry plus the sum of the update entries `(e, c)` over the
    rows `e` whose scatter index, read signed, is `r`. -/
theorem rowScatterAdd_apply {N E n w : Nat} {φ : FTy}
    (wf : ScatterDims.WF ⟨2, ![N, n]⟩ ⟨2, ![E, 1]⟩ ⟨2, ![E, n]⟩ [1] [0] [0] 1)
    (x : FVec Ideal ⟨2, ![N, n]⟩ φ) (idx : IVec ⟨2, ![E, 1]⟩ w) (upd : FVec Ideal ⟨2, ![E, n]⟩ φ) (r : Fin N) (c : Fin n) :
    Host.scatterAdd (F := Ideal) (⟨[1], [0], [0], 1, wf⟩ : ScatterDims ⟨2, ![N, n]⟩ ⟨2, ![E, 1]⟩ ⟨2, ![E, n]⟩) x idx upd (ix2 r c)
      = x (ix2 r c) + ∑ e ∈ Finset.univ.filter (fun e : Fin E => (idx (ix2 e (0 : Fin 1))).toInt = (r.val : ℤ)), upd (ix2 e c) := by
  show x (ix2 r c) + ∑ j ∈ Finset.univ.filter (fun j => (rowDims N E n wf).resultIdx? j idx = some (ix2 r c)), upd j = _
  congr 1
  rw [Finset.sum_filter, sum_idx2, Finset.sum_filter]
  refine Finset.sum_congr rfl fun e _ => ?_
  simp only [resultIdx?_eq_some_iff]
  by_cases he : (idx (ix2 e (0 : Fin 1))).toInt = (r.val : ℤ)
  · simp only [he, true_and, if_true]
    exact Finset.sum_ite_eq' Finset.univ c (fun b => upd (ix2 e b)) |>.trans (by simp)
  · simp only [he, false_and, if_false, Finset.sum_const_zero]

end Cert.Lib.RowScatterAdd

end
-- ==== Proof.HopRead.lean ====
/-
  The sparse aggregation as a host program spells it, read at one entry. Nine operations: the edge values laid out
  as a column and across n columns; the edge column indices prepared (a negative index has 50000 added), laid out as a
  column and used as the start indices of a gather of whole rows of the node array Z (each start index read signed and
  clamped into [0, 49999]); the product of the two [800000, n] arrays; and the accumulating scatter of its rows into an
  array of zeros at the edge row indices (an index outside [0, 50000) drops its row). Entry (r, c) of the result is
  zero plus the sum, over the edges whose signed row index is r, of the edge's value times entry c of the node row the
  edge reads.
-/
import Idealize.ShloMosaic.PureOps.Ideal
import Idealize.ShloMosaic.Lib.ValueIdx
import Idealize.ShloMosaic.Lib.ValueLayout
import Idealize.ShloMosaic.Lib.Pipeline.Value
import Idealize.ShloMosaic.Lib.IdealHost
import proofs.«170415_j34849364640474_2_alg».proof.Proof.Spec
import proofs.«170415_j34849364640474_2_alg».proof.Proof.LibMatDot
import proofs.«170415_j34849364640474_2_alg».proof.Proof.LibRowGather
import proofs.«170415_j34849364640474_2_alg».proof.Proof.LibRowScatterAdd

noncomputable section

open scoped BigOperators

namespace Cert.HopRead

open Idealize.ShloMosaic Idealize.ShloMosaic.ValueIdx

/-- A vector of `a` entries made a column `[a, 1]` along axis 0 reads, at `(p, u)`, the vector at `p`. -/
theorem broadcastInDim_vec_col_apply {α : Type} {a : ℕ}
    (h : (⟨1, ![a]⟩ : Shape).BroadcastsInDim ⟨2, ![a, 1]⟩ ![0]) (x : (⟨1, ![a]⟩ : Shape).Idx → α) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- The prepared column index of edge `e`, laid out as a column: at `(e, 0)` it is `wrapCol` of the edge's index. -/
theorem colIdx_apply (hb0 : (⟨0, ![]⟩ : Shape).BroadcastsInDim ⟨1, ![800000]⟩ (![] : Fin 0 → Fin 1))
    (hb1 : (⟨1, ![800000]⟩ : Shape).BroadcastsInDim ⟨2, ![800000, 1]⟩ ![0])
    (col : IVec ⟨1, ![800000]⟩ 32) (e : Fin 800000) :
    broadcastInDim ⟨2, ![800000, 1]⟩ ![0] hb1
        (select (cmpi .slt col (broadcastInDim ⟨1, ![800000]⟩ ![] hb0 (constantI ⟨0, ![]⟩ 32 0#32)))
          (addi col (broadcastInDim ⟨1, ![800000]⟩ ![] hb0 (constantI ⟨0, ![]⟩ 32 50000#32))) col) (ix2 e (0 : Fin 1))
      = GnnSpec.wrapCol (col (ix1 e)) := by
  refine (broadcastInDim_vec_col_apply hb1 _ e 0).trans ?_
  show Scalar.select
      (IntOp.cmpi .slt (col (ix1 e)) (broadcastInDim ⟨1, ![800000]⟩ ![] hb0 (constantI ⟨0, ![]⟩ 32 0#32) (ix1 e)))
      (IntOp.addi (col (ix1 e)) (broadcastInDim ⟨1, ![800000]⟩ ![] hb0 (constantI ⟨0, ![]⟩ 32 50000#32) (ix1 e)))
      (col (ix1 e)) = _
  rw [broadcastInDim_scalar_apply, broadcastInDim_scalar_apply]
  rfl

/-- THE AGGREGATION READ AT `(r, c)`. -/
theorem hop_apply {n : Nat}
    (hb0 : (⟨0, ![]⟩ : Shape).BroadcastsInDim ⟨1, ![800000]⟩ (![] : Fin 0 → Fin 1))
    (hb1 : (⟨1, ![800000]⟩ : Shape).BroadcastsInDim ⟨2, ![800000, 1]⟩ ![0])
    (hb2 : (⟨2, ![800000, 1]⟩ : Shape).BroadcastsInDim ⟨2, ![800000, n]⟩ ![0, 1])
    (hbz : (⟨0, ![]⟩ : Shape).BroadcastsInDim ⟨2, ![50000, n]⟩ (![] : Fin 0 → Fin 2))
    (wfG : GatherDims.WF ⟨2, ![50000, n]⟩ ⟨2, ![800000, 1]⟩ ⟨2, ![800000, n]⟩ [1] [0] [] [0] [] 1 ![1, n])
    (wfS : ScatterDims.WF ⟨2, ![50000, n]⟩ ⟨2, ![800000, 1]⟩ ⟨2, ![800000, n]⟩ [1] [0] [0] 1)
    (Z : FVec Ideal ⟨2, ![50000, n]⟩ .f32) (row col : IVec ⟨1, ![800000]⟩ 32) (val : FVec Ideal ⟨1, ![800000]⟩ .f32)
    (r : Fin 50000) (c : Fin n) :
    Host.scatterAdd (F := Ideal) (⟨[1], [0], [0], 1, wfS⟩ : ScatterDims ⟨2, ![50000, n]⟩ ⟨2, ![800000, 1]⟩ ⟨2, ![800000, n]⟩)
        (broadcastInDim ⟨2, ![50000, n]⟩ ![] hbz (constant (F := Ideal) ⟨0, ![]⟩ .f32 0x00000000#32))
        (broadcastInDim ⟨2, ![800000, 1]⟩ ![0] hb1 row)
        (mulf (broadcastInDim ⟨2, ![800000, n]⟩ ![0, 1] hb2 (broadcastInDim ⟨2, ![800000, 1]⟩ ![0] hb1 val))
              (Host.gather (⟨[1], [0], [], [], [0], 1, ![1, n], wfG⟩ : GatherDims ⟨2, ![50000, n]⟩ ⟨2, ![800000, 1]⟩ ⟨2, ![800000, n]⟩) Z
                (broadcastInDim ⟨2, ![800000, 1]⟩ ![0] hb1
                  (select (cmpi .slt col (broadcastInDim ⟨1, ![800000]⟩ ![] hb0 (constantI ⟨0, ![]⟩ 32 0#32)))
                          (addi col (broadcastInDim ⟨1, ![800000]⟩ ![] hb0 (constantI ⟨0, ![]⟩ 32 50000#32))) col))))
        (ix2 r c)
      = GnnSpec.spmm row col val (fun i k => Z (ix2 i k)) r c := by
  refine (Lib.RowScatterAdd.rowScatterAdd_apply wfS _ _ _ r c).trans ?_
  unfold GnnSpec.spmm
  refine congrArg₂ (· + ·) ?_ ?_
  · exact (broadcastInDim_scalar_apply hbz _ _).trans rfl
  · refine Finset.sum_congr (Finset.filter_congr fun e _ => ?_) fun e _ => ?_
    · rw [broadcastInDim_vec_col_apply hb1 row e 0]
    · show broadcastInDim ⟨2, ![800000, n]⟩ ![0, 1] hb2 (broadcastInDim ⟨2, ![800000, 1]⟩ ![0] hb1 val) (ix2 e c)
          * Host.gather (⟨[1], [0], [], [], [0], 1, ![1, n], wfG⟩ : GatherDims ⟨2, ![50000, n]⟩ ⟨2, ![800000, 1]⟩ ⟨2, ![800000, n]⟩) Z _ (ix2 e c)
          = _
      refine congrArg₂ (· * ·) ?_ ?_
      · exact (Lib.MatDot.broadcastInDim_col_apply hb2 _ e c).trans (broadcastInDim_vec_col_apply hb1 val e 0)
      · refine (Lib.RowGather.rowGather_apply (by decide) wfG Z _ e c).trans ?_
        refine congrArg Z (congrArg (fun a => ix2 a c) (Fin.ext ?_))
        show min (_ : BitVec 32).toInt.toNat (50000 - 1) = min (GnnSpec.wrapCol (col (ix1 e))).toInt.toNat (50000 - 1)
        rw [colIdx_apply hb0 hb1 col e]

end Cert.HopRead

end
-- ==== Proof.KernGlue.lean ====
/-
  The host side of the idealized kernel program, read off the boundary contents of its run.

  The result buffer holds the concatenation of the first region's first output array and the second region's output
  array. The first region enters with the features and weights as launched and the bias, scale and offset vectors laid
  out as one-row matrices. The second region enters with the aggregated array — the host's nine operations (prepare the
  column indices, gather the rows of the first region's second output, multiply by the edge values, accumulate into the
  rows named by the row indices) — and the second bias, scale and offset as one-row matrices.
-/
import proofs.«170415_j34849364640474_2_alg».proof.Proof.KernRun
import proofs.«170415_j34849364640474_2_alg».proof.Proof.Spec
import proofs.«170415_j34849364640474_2_alg».proof.Proof.HopRead
import Idealize.ShloMosaic.Lib.ValueLayout

set_option maxRecDepth 16384

noncomputable section

namespace Cert.KernelIdeal.Glue

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ) (ρ : Dev nD → PrngReg)

/-- A buffer none of a line's operations writes keeps its contents over the line. -/
macro "not_written" : tactic =>
  `(tactic| (refine StableHlo.after_of_forall_not_mem _ _ (List.forall_iff_forall_mem.mp ?_)
             simp only [hostOps0, hostOps1, hostOps2, List.Forall, StableHlo.nullary_writes, StableHlo.unary_writes,
               StableHlo.binary_writes, StableHlo.ternary_writes, StableHlo.reshape_writes, Finset.mem_singleton]
             repeat' apply And.intro
             all_goals exact StableHlo.devRef_ne_of_ne (by decide)))

theorem result_eq (c : Dev nD) :
    W5 m ρ c (Proc.devRef .tc main_v23)
      = concatenate S50000x256 1 [⟨S50000x128, W4 m ρ c (Proc.devRef .tc main_v6_0)⟩, ⟨S50000x128, W4 m ρ c (Proc.devRef .tc main_v22)⟩]
          concatenates_S50000x128_S50000x128_S50000x256_d1 := by
  show StableHlo.after hostOps2 (W4 m ρ c) (Proc.devRef .tc main_v23) = _
  after_results

theorem W4_v22 (c : Dev nD) : W4 m ρ c (Proc.devRef .tc main_v22) = (dat1 (V3 m ρ) c).arrAt 4 cfg1.N :=
  W4_arr m ρ c 4

theorem W4_v6_0 (c : Dev nD) : W4 m ρ c (Proc.devRef .tc main_v6_0) = (dat0 (V1 m ρ) c).arrAt 6 cfg0.N :=
  calc W4 m ρ c (Proc.devRef .tc main_v6_0)
    _ = W3 m ρ c (Proc.devRef .tc main_v6_0) := W4_of_ne m ρ c main_v6_0 (by decide)
    _ = W2 m ρ c (Proc.devRef .tc main_v6_0) := by not_written
    _ = (dat0 (V1 m ρ) c).arrAt 6 cfg0.N := W2_arr m ρ c 6

/-! ## The first region's entry contents -/

theorem V1_arg0 (c : Dev nD) : V1 m ρ c main_arg0 = m ((c : Thread nD τ).loc main_arg0) := by
  show StableHlo.after hostOps0 (W0 m ρ c) (Proc.devRef .tc main_arg0) = _
  exact (by not_written : StableHlo.after hostOps0 (W0 m ρ c) (Proc.devRef .tc main_arg0) = W0 m ρ c (Proc.devRef .tc main_arg0)).trans rfl
theorem V1_arg1 (c : Dev nD) : V1 m ρ c main_arg1 = m ((c : Thread nD τ).loc main_arg1) := by
  show StableHlo.after hostOps0 (W0 m ρ c) (Proc.devRef .tc main_arg1) = _
  exact (by not_written : StableHlo.after hostOps0 (W0 m ρ c) (Proc.devRef .tc main_arg1) = W0 m ρ c (Proc.devRef .tc main_arg1)).trans rfl
theorem V1_arg5 (c : Dev nD) : V1 m ρ c main_arg5 = m ((c : Thread nD τ).loc main_arg5) := by
  show StableHlo.after hostOps0 (W0 m ρ c) (Proc.devRef .tc main_arg5) = _
  exact (by not_written : StableHlo.after hostOps0 (W0 m ρ c) (Proc.devRef .tc main_arg5) = W0 m ρ c (Proc.devRef .tc main_arg5)).trans rfl

theorem V1_v0 (c : Dev nD) (j : Fin 128) :
    (V1 m ρ c main_v0 : S1x128.Idx → EReal) (ix2 (0 : Fin 1) j) = (m ((c : Thread nD τ).loc main_arg2) : S128.Idx → EReal) (ix1 j) := by
  have e : (V1 m ρ c main_v0 : S1x128.Idx → EReal) = shapeCast S1x128 (m ((c : Thread nD τ).loc main_arg2) : S128.Idx → EReal) shapeCasts_S128_S1x128 := by
    show StableHlo.after hostOps0 (W0 m ρ c) (Proc.devRef .tc main_v0) = _
    after_results; rfl
  rw [e]; exact shapeCast_a_1a_apply _ _ 0 j

theorem V1_v1 (c : Dev nD) (j : Fin 128) :
    (V1 m ρ c main_v1 : S1x128.Idx → EReal) (ix2 (0 : Fin 1) j) = (m ((c : Thread nD τ).loc main_arg3) : S128.Idx → EReal) (ix1 j) := by
  have e : (V1 m ρ c main_v1 : S1x128.Idx → EReal) = shapeCast S1x128 (m ((c : Thread nD τ).loc main_arg3) : S128.Idx → EReal) shapeCasts_S128_S1x128 := by
    show StableHlo.after hostOps0 (W0 m ρ c) (Proc.devRef .tc main_v1) = _
    after_results; rfl
  rw [e]; exact shapeCast_a_1a_apply _ _ 0 j

theorem V1_v2 (c : Dev nD) (j : Fin 128) :
    (V1 m ρ c main_v2 : S1x128.Idx → EReal) (ix2 (0 : Fin 1) j) = (m ((c : Thread nD τ).loc main_arg4) : S128.Idx → EReal) (ix1 j) := by
  have e : (V1 m ρ c main_v2 : S1x128.Idx → EReal) = shapeCast S1x128 (m ((c : Thread nD τ).loc main_arg4) : S128.Idx → EReal) shapeCasts_S128_S1x128 := by
    show StableHlo.after hostOps0 (W0 m ρ c) (Proc.devRef .tc main_v2) = _
    after_results; rfl
  rw [e]; exact shapeCast_a_1a_apply _ _ 0 j

/-! ## The second region's entry contents -/

theorem W2_arg9 (c : Dev nD) : W2 m ρ c (Proc.devRef .tc main_arg9) = m ((c : Thread nD τ).loc main_arg9) :=
  (W2_of_ne m ρ c main_arg9 (by decide)).trans
    ((by not_written : StableHlo.after hostOps0 (W0 m ρ c) (Proc.devRef .tc main_arg9) = W0 m ρ c (Proc.devRef .tc main_arg9)).trans rfl)
theorem W2_arg10 (c : Dev nD) : W2 m ρ c (Proc.devRef .tc main_arg10) = m ((c : Thread nD τ).loc main_arg10) :=
  (W2_of_ne m ρ c main_arg10 (by decide)).trans
    ((by not_written : StableHlo.after hostOps0 (W0 m ρ c) (Proc.devRef .tc main_arg10) = W0 m ρ c (Proc.devRef .tc main_arg10)).trans rfl)
theorem W2_arg11 (c : Dev nD) : W2 m ρ c (Proc.devRef .tc main_arg11) = m ((c : Thread nD τ).loc main_arg11) :=
  (W2_of_ne m ρ c main_arg11 (by decide)).trans
    ((by not_written : StableHlo.after hostOps0 (W0 m ρ c) (Proc.devRef .tc main_arg11) = W0 m ρ c (Proc.devRef .tc main_arg11)).trans rfl)

theorem W2_v6_1 (c : Dev nD) : W2 m ρ c (Proc.devRef .tc main_v6_1) = (dat0 (V1 m ρ) c).arrAt 7 cfg0.N := W2_arr m ρ c 7

/-- The host's nine operations between the regions, as one function of the node rows `P` and the three edge arrays. -/
def hopTerm (P : S50000x128.Idx → EReal) (row col : S800000.Idx → BitVec 32) (val : S800000.Idx → EReal) : S50000x128.Idx → EReal :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 row)
    (mulf (F := Ideal) (φ := .f32) (broadcastInDim S800000x128 ![0, 1] bcast_S800000x1_S800000x128_0_1
            (broadcastInDim S800000x1 ![0] bcast_S800000_S800000x1_0 val))
          (extf (F := Ideal) (φ := .bf16) .f32 (Host.gather gather_S50000x128_S800000x1_S800000x128_1_0_n_n_0_1_1128
            (truncf (F := Ideal) (φ := .f32) .bf16 P bitsLt_bf16_f32)
            (broadcastInDim S800000x1 ![0] bcast_S800000_S800000x1_0
              (select (cmpi .slt col (broadcastInDim S800000 ![] bcast_S_S800000 (constantI S_ 32 0#32)))
                (addi col (broadcastInDim S800000 ![] bcast_S_S800000 (constantI S_ 32 50000#32)))
                col))) bitsLt_bf16_f32))

set_option maxHeartbeats 4000000 in
/-- Over any contents `U`, the line of host operations between the regions leaves in its last buffer that function of
    the four buffers it reads. -/
theorem after_hostOps1_v21 (U : Valuation τ sig (Elt Ideal)) :
    StableHlo.after hostOps1 U (Proc.devRef .tc main_v21)
      = hopTerm (U (Proc.devRef .tc main_v6_1)) (U (Proc.devRef .tc main_arg9)) (U (Proc.devRef .tc main_arg10)) (U (Proc.devRef .tc main_arg11)) := by
  unfold hopTerm
  after_results_simp
  first | rfl | skip

theorem V3_v21 (c : Dev nD) :
    V3 m ρ c main_v21 = hopTerm ((dat0 (V1 m ρ) c).arrAt 7 cfg0.N) (m ((c : Thread nD τ).loc main_arg9))
      (m ((c : Thread nD τ).loc main_arg10)) (m ((c : Thread nD τ).loc main_arg11)) := by
  refine (after_hostOps1_v21 (W2 m ρ c)).trans ?_
  rw [W2_v6_1, W2_arg9, W2_arg10, W2_arg11]

theorem after_hostOps0_v3 (U : Valuation τ sig (Elt Ideal)) :
    StableHlo.after hostOps0 U (Proc.devRef .tc main_v3) = shapeCast S1x128 (U (Proc.devRef .tc main_arg6) : S128.Idx → EReal) shapeCasts_S128_S1x128 := by
  after_results; rfl

theorem V3_v3 (c : Dev nD) (j : Fin 128) :
    (V3 m ρ c main_v3 : S1x128.Idx → EReal) (ix2 (0 : Fin 1) j) = (m ((c : Thread nD τ).loc main_arg6) : S128.Idx → EReal) (ix1 j) := by
  have e : (V3 m ρ c main_v3 : S1x128.Idx → EReal) = shapeCast S1x128 (m ((c : Thread nD τ).loc main_arg6) : S128.Idx → EReal) shapeCasts_S128_S1x128 := by
    show StableHlo.after hostOps1 (W2 m ρ c) (Proc.devRef .tc main_v3) = _
    refine (by not_written : StableHlo.after hostOps1 (W2 m ρ c) (Proc.devRef .tc main_v3) = W2 m ρ c (Proc.devRef .tc main_v3)).trans ?_
    refine (W2_of_ne m ρ c main_v3 (by decide)).trans ?_
    exact after_hostOps0_v3 (W0 m ρ c)
  rw [e]; exact shapeCast_a_1a_apply _ _ 0 j

theorem after_hostOps0_v4 (U : Valuation τ sig (Elt Ideal)) :
    StableHlo.after hostOps0 U (Proc.devRef .tc main_v4) = shapeCast S1x128 (U (Proc.devRef .tc main_arg7) : S128.Idx → EReal) shapeCasts_S128_S1x128 := by
  after_results; rfl

theorem V3_v4 (c : Dev nD) (j : Fin 128) :
    (V3 m ρ c main_v4 : S1x128.Idx → EReal) (ix2 (0 : Fin 1) j) = (m ((c : Thread nD τ).loc main_arg7) : S128.Idx → EReal) (ix1 j) := by
  have e : (V3 m ρ c main_v4 : S1x128.Idx → EReal) = shapeCast S1x128 (m ((c : Thread nD τ).loc main_arg7) : S128.Idx → EReal) shapeCasts_S128_S1x128 := by
    show StableHlo.after hostOps1 (W2 m ρ c) (Proc.devRef .tc main_v4) = _
    refine (by not_written : StableHlo.after hostOps1 (W2 m ρ c) (Proc.devRef .tc main_v4) = W2 m ρ c (Proc.devRef .tc main_v4)).trans ?_
    refine (W2_of_ne m ρ c main_v4 (by decide)).trans ?_
    exact after_hostOps0_v4 (W0 m ρ c)
  rw [e]; exact shapeCast_a_1a_apply _ _ 0 j

theorem after_hostOps0_v5 (U : Valuation τ sig (Elt Ideal)) :
    StableHlo.after hostOps0 U (Proc.devRef .tc main_v5) = shapeCast S1x128 (U (Proc.devRef .tc main_arg8) : S128.Idx → EReal) shapeCasts_S128_S1x128 := by
  after_results; rfl

theorem V3_v5 (c : Dev nD) (j : Fin 128) :
    (V3 m ρ c main_v5 : S1x128.Idx → EReal) (ix2 (0 : Fin 1) j) = (m ((c : Thread nD τ).loc main_arg8) : S128.Idx → EReal) (ix1 j) := by
  have e : (V3 m ρ c main_v5 : S1x128.Idx → EReal) = shapeCast S1x128 (m ((c : Thread nD τ).loc main_arg8) : S128.Idx → EReal) shapeCasts_S128_S1x128 := by
    show StableHlo.after hostOps1 (W2 m ρ c) (Proc.devRef .tc main_v5) = _
    refine (by not_written : StableHlo.after hostOps1 (W2 m ρ c) (Proc.devRef .tc main_v5) = W2 m ρ c (Proc.devRef .tc main_v5)).trans ?_
    refine (W2_of_ne m ρ c main_v5 (by decide)).trans ?_
    exact after_hostOps0_v5 (W0 m ρ c)
  rw [e]; exact shapeCast_a_1a_apply _ _ 0 j

/-- The aggregated array at an entry: the sum over the edges into node `r` of the edge's value times the entry of the
    edge's source row. -/
theorem hopTerm_apply (P : S50000x128.Idx → EReal) (row col : S800000.Idx → BitVec 32) (val : S800000.Idx → EReal)
    (r : Fin 50000) (j : Fin 128) :
    hopTerm P row col val (ix2 r j) = GnnSpec.spmm row col val (fun i k => P (ix2 i k)) r j := by
  unfold hopTerm
  exact Cert.HopRead.hop_apply _ _ _ _ _ _ P row col val r j

end Cert.KernelIdeal.Glue

end
-- ==== Proof.KernLayout.lean ====
/-
  Two reads at an entry that a row reduction with kept dimensions needs, at the ideal values, for an array of
  `a` rows and `b` lanes: the sum along the lanes into a vector of `a` entries reads, at `p`, the sum over
  the lane coordinate `k` of the entries `(p, k)`; and a vector of `a` entries cast to a column `[a, 1]`
  reads, at `(p, u)`, the vector at `p`. Composed: the column of the row sums at `(p, u)` is `∑ k, x (p, k)`.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Blocks

open Idealize.ShloMosaic Idealize.ShloMosaic.ValueIdx

variable {α : Type}

/-- A vector of `a` entries cast to a column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The sum along the lanes of an `[a, b]` array, from the zero word, reads at `p` the sum of row `p`'s entries. -/
theorem laneSum_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ x 0x00000000#32 h hφ hacc (ix1 p) = ∑ k : Fin b, x (ix2 p k) := by
  refine (Ideal.multiReduction_add_single x 0x00000000#32 h hφ hacc (ix1 p)).trans ?_
  refine Finset.sum_congr rfl fun k _ => congrArg x ?_
  funext c; apply Fin.ext
  match c with
  | ⟨0, _⟩ => rfl
  | ⟨1, _⟩ => rfl

/-- So the column of the row sums reads, at `(p, u)`, the sum of row `p`'s entries. -/
theorem laneSum_col_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = 0x00000000#32)
    (hc : (⟨1, ![a]⟩ : Shape).ShapeCasts ⟨2, ![a, 1]⟩) (p : Fin a) (u : Fin 1) :
    shapeCast ⟨2, ![a, 1]⟩ (multiReduction .add [1] ⟨1, ![a]⟩ x 0x00000000#32 h hφ hacc) hc (ix2 p u)
      = ∑ k : Fin b, x (ix2 p k) :=
  (shapeCast_a_a1_apply _ hc p u).trans (laneSum_apply x h hφ hacc p)

end Cert.KernelIdeal.Blocks

end
-- ==== Proof.KernNorm.lean ====
/-
  The row normalisation as the vector unit computes it on a block of `a` rows of 128 lanes, read at one entry.

  The block `v` (already clipped) is summed along the lanes, the sums made a column and divided by 128: the row
  means. The means are laid across the lanes and taken off; the squared deviations are summed along the lanes,
  made a column, divided by 128 and the small constant added: the reciprocal square root of that column is laid
  across the lanes. Each deviation is multiplied by the scale row laid down the rows, then by that reciprocal
  square root, and the offset row laid down the rows is added. At entry `(p, q)` this is the normalised row
  `p` of `v` at `q`, with the scale and the offset read in their one row.
-/
import Idealize.ShloMosaic.PureOps
import proofs.«170415_j34849364640474_2_alg».proof.Proof.Spec
import proofs.«170415_j34849364640474_2_alg».proof.Proof.KernLayout
import proofs.«170415_j34849364640474_2_alg».proof.Proof.LibMatDot

noncomputable section

open scoped BigOperators

namespace Cert.KernelIdeal.Blocks

open Idealize.ShloMosaic Idealize.ShloMosaic.ValueIdx

/-- The normalisation of a clipped block `v` of `a` rows by the scale row `s` and the offset row `o`, operation
    by operation as the vector unit applies them. -/
def normBlock {a : ℕ} (hred : (⟨2, ![a, 128]⟩ : Shape).Reduces [1] ⟨1, ![a]⟩)
    (hcol : (⟨1, ![a]⟩ : Shape).ShapeCasts ⟨2, ![a, 1]⟩)
    (hbc : (⟨2, ![a, 1]⟩ : Shape).Broadcasts ⟨2, ![a, 128]⟩)
    (hrow : (⟨2, ![1, 128]⟩ : Shape).Broadcasts ⟨2, ![a, 128]⟩)
    (hself : (⟨2, ![1, 128]⟩ : Shape).ShapeCasts ⟨2, ![1, 128]⟩)
    (v : FVec Ideal ⟨2, ![a, 128]⟩ .f32) (s o : FVec Ideal ⟨2, ![1, 128]⟩ .f32) : FVec Ideal ⟨2, ![a, 128]⟩ .f32 :=
  have v11 : FVec Ideal ⟨1, ![a]⟩ .f32 := multiReduction .add [1] ⟨1, ![a]⟩ v 0x00000000#32 hred (.inl rfl) rfl
  have v12 : FVec Ideal ⟨2, ![a, 1]⟩ .f32 := shapeCast ⟨2, ![a, 1]⟩ v11 hcol
  have cst_7 : Ideal .f32 := Scalar.ofBits .f32 0x43000000#32
  have v13 : FVec Ideal ⟨2, ![a, 1]⟩ .f32 := broadcast ⟨2, ![a, 1]⟩ cst_7
  have v14 : FVec Ideal ⟨2, ![a, 1]⟩ .f32 := divf v12 v13
  have v15 : FVec Ideal ⟨2, ![a, 128]⟩ .f32 := broadcastTo ⟨2, ![a, 128]⟩ v14 hbc
  have v16 : FVec Ideal ⟨2, ![a, 128]⟩ .f32 := subf v v15
  have v17 : FVec Ideal ⟨2, ![a, 128]⟩ .f32 := mulf v16 v16
  have v18 : FVec Ideal ⟨1, ![a]⟩ .f32 := multiReduction .add [1] ⟨1, ![a]⟩ v17 0x00000000#32 hred (.inl rfl) rfl
  have v19 : FVec Ideal ⟨2, ![a, 1]⟩ .f32 := shapeCast ⟨2, ![a, 1]⟩ v18 hcol
  have cst_9 : Ideal .f32 := Scalar.ofBits .f32 0x43000000#32
  have v20 : FVec Ideal ⟨2, ![a, 1]⟩ .f32 := broadcast ⟨2, ![a, 1]⟩ cst_9
  have v21 : FVec Ideal ⟨2, ![a, 1]⟩ .f32 := divf v19 v20
  have cst_10 : Ideal .f32 := Scalar.ofBits .f32 0x3089705F#32
  have v22 : FVec Ideal ⟨2, ![a, 1]⟩ .f32 := broadcast ⟨2, ![a, 1]⟩ cst_10
  have v23 : FVec Ideal ⟨2, ![a, 1]⟩ .f32 := addf v21 v22
  have v24 : FVec Ideal ⟨2, ![a, 1]⟩ .f32 := rsqrt v23
  have v26 : FVec Ideal ⟨2, ![1, 128]⟩ .f32 := shapeCast ⟨2, ![1, 128]⟩ s hself
  have v27 : FVec Ideal ⟨2, ![a, 128]⟩ .f32 := broadcastTo ⟨2, ![a, 128]⟩ v26 hrow
  have v28 : FVec Ideal ⟨2, ![a, 128]⟩ .f32 := mulf v16 v27
  have v29 : FVec Ideal ⟨2, ![a, 128]⟩ .f32 := broadcastTo ⟨2, ![a, 128]⟩ v24 hbc
  have v30 : FVec Ideal ⟨2, ![a, 128]⟩ .f32 := mulf v28 v29
  have v32 : FVec Ideal ⟨2, ![1, 128]⟩ .f32 := shapeCast ⟨2, ![1, 128]⟩ o hself
  have v33 : FVec Ideal ⟨2, ![a, 128]⟩ .f32 := broadcastTo ⟨2, ![a, 128]⟩ v32 hrow
  addf v30 v33

/-- At entry `(p, q)` it is the normalised row `p` of the block at `q`. -/
theorem normBlock_apply {a : ℕ} (hred : (⟨2, ![a, 128]⟩ : Shape).Reduces [1] ⟨1, ![a]⟩)
    (hcol : (⟨1, ![a]⟩ : Shape).ShapeCasts ⟨2, ![a, 1]⟩)
    (hbc : (⟨2, ![a, 1]⟩ : Shape).Broadcasts ⟨2, ![a, 128]⟩)
    (hrow : (⟨2, ![1, 128]⟩ : Shape).Broadcasts ⟨2, ![a, 128]⟩)
    (hself : (⟨2, ![1, 128]⟩ : Shape).ShapeCasts ⟨2, ![1, 128]⟩)
    (v : FVec Ideal ⟨2, ![a, 128]⟩ .f32) (s o : FVec Ideal ⟨2, ![1, 128]⟩ .f32) (p : Fin a) (q : Fin 128) :
    normBlock hred hcol hbc hrow hself v s o (ix2 p q)
      = GnnSpec.normRow (fun j => v (ix2 p j)) (fun j => s (ix2 (0 : Fin 1) j)) (fun j => o (ix2 (0 : Fin 1) j)) q := by
  -- the row mean, as the column of the lane sums divided by 128, laid across the lanes
  have hmean : ∀ (w : FVec Ideal ⟨2, ![a, 128]⟩ .f32) (c : Fin 128),
      broadcastTo ⟨2, ![a, 128]⟩ (divf (shapeCast ⟨2, ![a, 1]⟩
          (multiReduction .add [1] ⟨1, ![a]⟩ w 0x00000000#32 hred (.inl rfl) rfl) hcol)
          (broadcast ⟨2, ![a, 1]⟩ (Scalar.ofBits .f32 0x43000000#32 : Ideal .f32))) hbc (ix2 p c)
        = Ideal.div (∑ k : Fin 128, w (ix2 p k)) GnnSpec.c128 := fun w c =>
    (Cert.Lib.MatDot.broadcastTo_col_apply _ hbc p c).trans
      (congrArg (fun z => Ideal.div z GnnSpec.c128) (laneSum_col_apply w hred _ _ hcol p 0))
  have hdev : ∀ c : Fin 128,
      subf v (broadcastTo ⟨2, ![a, 128]⟩ (divf (shapeCast ⟨2, ![a, 1]⟩
          (multiReduction .add [1] ⟨1, ![a]⟩ v 0x00000000#32 hred (.inl rfl) rfl) hcol)
          (broadcast ⟨2, ![a, 1]⟩ (Scalar.ofBits .f32 0x43000000#32 : Ideal .f32))) hbc) (ix2 p c)
        = v (ix2 p c) - GnnSpec.rowMean (fun j => v (ix2 p j)) := fun c =>
    congrArg (fun z => v (ix2 p c) - z) (hmean v c)
  unfold normBlock GnnSpec.normRow GnnSpec.rowVar
  show (_ * broadcastTo ⟨2, ![a, 128]⟩ (shapeCast ⟨2, ![1, 128]⟩ s hself) hrow (ix2 p q))
        * broadcastTo ⟨2, ![a, 128]⟩ _ hbc (ix2 p q)
      + broadcastTo ⟨2, ![a, 128]⟩ (shapeCast ⟨2, ![1, 128]⟩ o hself) hrow (ix2 p q) = _
  rw [broadcastTo_1b_ab_apply, broadcastTo_1b_ab_apply, shapeCast_self, shapeCast_self,
    Cert.Lib.MatDot.broadcastTo_col_apply, hdev q]
  refine congrArg (fun z => (v (ix2 p q) - GnnSpec.rowMean (fun j => v (ix2 p j))) * s (ix2 (0 : Fin 1) q)
      * Ideal.rsqrt (z + GnnSpec.eps) + o (ix2 (0 : Fin 1) q)) ?_
  refine (congrArg (fun z => Ideal.div z GnnSpec.c128) (laneSum_col_apply _ hred _ _ hcol p 0)).trans ?_
  refine congrArg (fun z => Ideal.div z GnnSpec.c128) (Finset.sum_congr rfl fun k _ => ?_)
  show subf v _ (ix2 p k) * subf v _ (ix2 p k) = _
  rw [hdev k]

end Cert.KernelIdeal.Blocks

end
-- ==== Proof.KernPay.lean ====
/-
  The three stored values of the two kernel bodies, read at one entry `(p, q)` of a block of 1000 rows.

  The second product's stored value is the inner product of row `p` of the feature block with column `q` of the
  second weight matrix (rounding the operands to the narrow format is the identity at the ideal values, and the
  zero accumulator adds nothing). The first body's other stored value is the feature transform of the row of
  pre-activations `j ↦ (∑ k, x (p, k) · w (k, j)) + b j`; the second body's stored value is the feature transform of
  the row `j ↦ h (p, j) + b j`. Both end in the same normalisation of the clipped block.
-/
import proofs.«170415_j34849364640474_2_alg».proof.Proof.Gen.KernelIdeal.Skeleton
import proofs.«170415_j34849364640474_2_alg».proof.Proof.Spec
import proofs.«170415_j34849364640474_2_alg».proof.Proof.KernNorm
import proofs.«170415_j34849364640474_2_alg».proof.Proof.LibMatDot

noncomputable section

open scoped BigOperators

namespace Cert.KernelIdeal.Blocks

open Idealize.ShloMosaic Idealize.ShloMosaic.ValueIdx
open Cert.KernelIdeal Cert.KernelIdeal.Gen

/-- The product of a block of 1000 feature rows by a 256×128 weight matrix, both rounded to the narrow format,
    into the zero accumulator: at `(p, q)` the inner product of row `p` with column `q`. -/
theorem mm_apply (A : Vec Ideal S1000x256 .f32) (B : Vec Ideal S256x128 .f32) (p : Fin 1000) (q : Fin 128) :
    matmul dot_S1000x256_S256x128_S1000x128_1_0_0_1_n_n none (truncf .bf16 A bitsLt_bf16_f32)
        (truncf .bf16 B bitsLt_bf16_f32) (constant (F := Ideal) S1000x128 .f32 0x00000000#32) (ix2 p q)
      = ∑ k : Fin 256, A (ix2 p k) * B (ix2 k q) := by
  unfold dot_S1000x256_S256x128_S1000x128_1_0_0_1_n_n
  exact (Cert.Lib.MatDot.matmul_zero_apply _ none _ _ p q).trans (Finset.sum_congr rfl fun k _ => rfl)

/-- The second product's stored value at `(p, q)`. -/
theorem pay1_apply (x0 : Vec Ideal S1000x256 .f32) (x5 : Vec Ideal S256x128 .f32) (p : Fin 1000) (q : Fin 128) :
    k0_pay1 (k0_pay2 x0) x5 (ix2 p q) = ∑ k : Fin 256, x0 (ix2 p k) * x5 (ix2 k q) :=
  mm_apply x0 x5 p q

/-- The first body's transformed block is the normalisation of the clipped pre-activations. -/
theorem pay3_eq_normBlock (x0 : Vec Ideal S1000x256 .f32) (x1 : Vec Ideal S256x128 .f32) (x2 x3 x4 : Vec Ideal S1x128 .f32) :
    k0_pay3 x0 x1 x2 x3 x4
      = normBlock reduces_S1000x128_S1000 shapeCasts_S1000_S1000x1 broadcasts_S1000x1_S1000x128
          broadcasts_S1x128_S1000x128 shapeCasts_S1x128_S1x128
          (maximumf (addf (matmul dot_S1000x256_S256x128_S1000x128_1_0_0_1_n_n none (truncf .bf16 x0 bitsLt_bf16_f32)
              (truncf .bf16 x1 bitsLt_bf16_f32) (constant (F := Ideal) S1000x128 .f32 0x00000000#32))
            (broadcastTo S1000x128 (shapeCast S1x128 x2 shapeCasts_S1x128_S1x128) broadcasts_S1x128_S1000x128))
            (broadcast S1000x128 (Scalar.ofBits .f32 0x00000000#32 : Ideal .f32))) x3 x4 := rfl

/-- The first body's transformed block at `(p, q)`: the feature transform of row `p`'s pre-activations. -/
theorem pay3_apply (x0 : Vec Ideal S1000x256 .f32) (x1 : Vec Ideal S256x128 .f32) (x2 x3 x4 : Vec Ideal S1x128 .f32)
    (p : Fin 1000) (q : Fin 128) :
    k0_pay3 x0 x1 x2 x3 x4 (ix2 p q)
      = GnnSpec.featRow (fun j => (∑ k : Fin 256, x0 (ix2 p k) * x1 (ix2 k j)) + x2 (ix2 (0 : Fin 1) j))
          (fun j => x3 (ix2 (0 : Fin 1) j)) (fun j => x4 (ix2 (0 : Fin 1) j)) q := by
  rw [pay3_eq_normBlock]
  refine (normBlock_apply _ _ _ _ _ _ x3 x4 p q).trans ?_
  unfold GnnSpec.featRow
  refine congrArg (fun h => GnnSpec.normRow h (fun j => x3 (ix2 (0 : Fin 1) j)) (fun j => x4 (ix2 (0 : Fin 1) j)) q)
    (funext fun j => ?_)
  show max (matmul dot_S1000x256_S256x128_S1000x128_1_0_0_1_n_n none (truncf .bf16 x0 bitsLt_bf16_f32)
        (truncf .bf16 x1 bitsLt_bf16_f32) (constant (F := Ideal) S1000x128 .f32 0x00000000#32) (ix2 p j)
      + broadcastTo S1000x128 (shapeCast S1x128 x2 shapeCasts_S1x128_S1x128) broadcasts_S1x128_S1000x128 (ix2 p j))
      GnnSpec.z0 = GnnSpec.clip _
  rw [mm_apply, broadcastTo_1b_ab_apply, shapeCast_self]
  rfl

/-- The second body's stored block is the normalisation of the clipped pre-activations. -/
theorem pay1b_eq_normBlock (x0 : Vec Ideal S1000x128 .f32) (x1 x2 x3 : Vec Ideal S1x128 .f32) :
    k1_pay1 x0 x1 x2 x3
      = normBlock reduces_S1000x128_S1000 shapeCasts_S1000_S1000x1 broadcasts_S1000x1_S1000x128
          broadcasts_S1x128_S1000x128 shapeCasts_S1x128_S1x128
          (maximumf (addf (shapeCast S1000x128 x0 shapeCasts_S1000x128_S1000x128)
            (broadcastTo S1000x128 (shapeCast S1x128 x1 shapeCasts_S1x128_S1x128) broadcasts_S1x128_S1000x128))
            (broadcast S1000x128 (Scalar.ofBits .f32 0x00000000#32 : Ideal .f32))) x2 x3 := rfl

/-- The second body's stored block at `(p, q)`: the feature transform of row `p` of the aggregated block plus the bias. -/
theorem pay1b_apply (x0 : Vec Ideal S1000x128 .f32) (x1 x2 x3 : Vec Ideal S1x128 .f32) (p : Fin 1000) (q : Fin 128) :
    k1_pay1 x0 x1 x2 x3 (ix2 p q)
      = GnnSpec.featRow (fun j => x0 (ix2 p j) + x1 (ix2 (0 : Fin 1) j))
          (fun j => x2 (ix2 (0 : Fin 1) j)) (fun j => x3 (ix2 (0 : Fin 1) j)) q := by
  rw [pay1b_eq_normBlock]
  refine (normBlock_apply _ _ _ _ _ _ x2 x3 p q).trans ?_
  unfold GnnSpec.featRow
  refine congrArg (fun h => GnnSpec.normRow h (fun j => x2 (ix2 (0 : Fin 1) j)) (fun j => x3 (ix2 (0 : Fin 1) j)) q)
    (funext fun j => ?_)
  show max (shapeCast S1000x128 x0 shapeCasts_S1000x128_S1000x128 (ix2 p j)
      + broadcastTo S1000x128 (shapeCast S1x128 x1 shapeCasts_S1x128_S1x128) broadcasts_S1x128_S1000x128 (ix2 p j))
      GnnSpec.z0 = GnnSpec.clip _
  rw [broadcastTo_1b_ab_apply, shapeCast_self, shapeCast_self]
  rfl

end Cert.KernelIdeal.Blocks

end
-- ==== Proof.KernBlocks0.lean ====
/-
  The first region's two output arrays after its fifty grid points, for any contents `V` of the buffers when the
  region is entered.

  Point `t` reads rows `1000 t … 1000 t + 999` of the feature array and the weight, bias, scale and offset arrays
  whole, and writes back rows `1000 t … 1000 t + 999` of each output. What it writes back is the restriction to
  those rows of ONE function of the whole arrays: for the second product, entry `(r, q)` is the inner product of
  feature row `r` with column `q` of the second weight matrix; for the transformed features, entry `(r, q)` is
  the feature transform of row `r`'s pre-activations at `q`. Row `r` is written by point `r / 1000`, so the fifty
  blocks cover the arrays and each array ends holding its function.
-/
import proofs.«170415_j34849364640474_2_alg».proof.Proof.Gen.KernelIdeal.Frame
import proofs.«170415_j34849364640474_2_alg».proof.Proof.KernPay
import Idealize.ShloMosaic.Lib.Pipeline.Value

noncomputable section

open scoped BigOperators

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zeros2 : (![0, 0] : Fin 2 → Nat) = fun _ => 0 := funext fun a => by fin_cases a <;> rfl

/-- The block indices over the grid: the feature window and the two output windows are at row block `t`, column
    block 0; every other window is at block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem lt50 (t : Fin cfg0.N) : t.val < 50 := lt_of_lt_of_eq t.isLt N_0

/-! ## The input windows' blocks -/

/-- The feature window's block at point `t`, entry `(p, k)`, is the feature array at row `1000 t + p`. -/
theorem iblk0_0_apply (c : Dev nD) (t : Fin cfg0.N) (p : Fin 1000) (k : Fin 256) (r : Fin 50000)
    (hr : r.val = 1000 * t.val + p.val) :
    (iblk0 V c 0 t : Vec Ideal S1000x256 .f32) (ix2 p k) = (V c main_arg0 : S50000x256.Idx → EReal) (ix2 r k) := by
  obtain ⟨e0, e1, -⟩ := idx_facts0 t
  unfold iblk0
  rw [View.read_apply]
  show (V c main_arg0 : S50000x256.Idx → EReal) _ = _
  refine congrArg (V c main_arg0 : S50000x256.Idx → EReal) ?_
  funext a; apply Fin.ext
  match a with
  | ⟨0, _⟩ => show win0_0.index t (0 : Fin 2) * 1000 + 1 * p.val = r.val; rw [e0, hr]; omega
  | ⟨1, _⟩ => show win0_0.index t (1 : Fin 2) * 256 + 1 * k.val = k.val; rw [e1]; omega

/-- The first weight matrix's window is the whole matrix at every point. -/
theorem iblk0_1_eq (c : Dev nD) (t : Fin cfg0.N) :
    (iblk0 V c 1 t : Vec Ideal S256x128 .f32) = (V c main_arg1 : S256x128.Idx → EReal) := by
  obtain ⟨-, -, e0, e1, -⟩ := idx_facts0 t
  unfold iblk0
  funext y
  rw [View.read_apply]
  show (V c main_arg1 : S256x128.Idx → EReal) _ = _
  refine congrArg (V c main_arg1 : S256x128.Idx → EReal) ?_
  funext a; apply Fin.ext
  match a with
  | ⟨0, _⟩ => show win0_1.index t (0 : Fin 2) * 256 + 1 * (y 0).val = (y 0).val; rw [e0]; omega
  | ⟨1, _⟩ => show win0_1.index t (1 : Fin 2) * 128 + 1 * (y 1).val = (y 1).val; rw [e1]; omega

/-- The bias row's window is the whole row at every point. -/
theorem iblk0_2_eq (c : Dev nD) (t : Fin cfg0.N) :
    (iblk0 V c 2 t : Vec Ideal S1x128 .f32) = (V c main_v0 : S1x128.Idx → EReal) := by
  obtain ⟨-, -, -, -, e0, e1, -⟩ := idx_facts0 t
  unfold iblk0
  funext y
  rw [View.read_apply]
  show (V c main_v0 : S1x128.Idx → EReal) _ = _
  refine congrArg (V c main_v0 : S1x128.Idx → EReal) ?_
  funext a; apply Fin.ext
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-- The scale row's window is the whole row at every point. -/
theorem iblk0_3_eq (c : Dev nD) (t : Fin cfg0.N) :
    (iblk0 V c 3 t : Vec Ideal S1x128 .f32) = (V c main_v1 : S1x128.Idx → EReal) := by
  obtain ⟨-, -, -, -, -, -, e0, e1, -⟩ := idx_facts0 t
  unfold iblk0
  funext y
  rw [View.read_apply]
  show (V c main_v1 : S1x128.Idx → EReal) _ = _
  refine congrArg (V c main_v1 : S1x128.Idx → EReal) ?_
  funext a; apply Fin.ext
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

/-- The offset row's window is the whole row at every point. -/
theorem iblk0_4_eq (c : Dev nD) (t : Fin cfg0.N) :
    (iblk0 V c 4 t : Vec Ideal S1x128 .f32) = (V c main_v2 : S1x128.Idx → EReal) := by
  obtain ⟨-, -, -, -, -, -, -, -, e0, e1, -⟩ := idx_facts0 t
  unfold iblk0
  funext y
  rw [View.read_apply]
  show (V c main_v2 : S1x128.Idx → EReal) _ = _
  refine congrArg (V c main_v2 : S1x128.Idx → EReal) ?_
  funext a; apply Fin.ext
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- The second weight matrix's window is the whole matrix at every point. -/
theorem iblk0_5_eq (c : Dev nD) (t : Fin cfg0.N) :
    (iblk0 V c 5 t : Vec Ideal S256x128 .f32) = (V c main_arg5 : S256x128.Idx → EReal) := by
  obtain ⟨-, -, -, -, -, -, -, -, -, -, e0, e1, -⟩ := idx_facts0 t
  unfold iblk0
  funext y
  rw [View.read_apply]
  show (V c main_arg5 : S256x128.Idx → EReal) _ = _
  refine congrArg (V c main_arg5 : S256x128.Idx → EReal) ?_
  funext a; apply Fin.ext
  match a with
  | ⟨0, _⟩ => show win0_5.index t (0 : Fin 2) * 256 + 1 * (y 0).val = (y 0).val; rw [e0]; omega
  | ⟨1, _⟩ => show win0_5.index t (1 : Fin 2) * 128 + 1 * (y 1).val = (y 1).val; rw [e1]; omega

/-! ## The second product: window 7 -/

/-- The second product as one function of the whole arrays. -/
def prodArr (X : S50000x256.Idx → EReal) (W : S256x128.Idx → EReal) : S50000x128.Idx → EReal :=
  fun i => GnnSpec.matRow X W (i 0) (i 1)

/-- What point `t` writes back of the second product is rows `1000 t …` of that function. -/
theorem flushed0_7_eq (c : Dev nD) (t : Fin cfg0.N) :
    (dat0 V c).flushed 7 t
      = ((cfg0.win 7).blk t).view.read (Elt Ideal) (prodArr (V c main_arg0) (V c main_arg5)) := by
  show (cfg0.win 7).cut (grid0.coords t) ((dat0 V c).after 7 t) = _
  rw [after0_7]
  unfold out0_7
  rw [View.canon_unit_zero zeros2]
  simp only [View.ld_unit_zero (S := S1000x256) zeros2, View.ld_unit_zero (S := S256x128) zeros2]
  rw [iblk0_5_eq V c t]
  have ht := lt50 t
  obtain ⟨-, -, -, -, -, -, -, -, -, -, -, -, -, -, e0, e1⟩ := idx_facts0 t
  funext j
  obtain ⟨p, q, rfl⟩ : ∃ (p : Fin 1000) (q : Fin 128), j = ix2 p q := ⟨j 0, j 1, eq_ix2 j⟩
  have hemb : (((cfg0.win 7).blk t).view.emb (ix2 p q) : S50000x128.Idx)
      = ix2 (⟨1000 * t.val + p.val, by omega⟩ : Fin 50000) q := by
    funext a; apply Fin.ext
    match a with
    | ⟨0, _⟩ => show win0_7.index t (0 : Fin 2) * 1000 + 1 * p.val = 1000 * t.val + p.val; rw [e0]; omega
    | ⟨1, _⟩ => show win0_7.index t (1 : Fin 2) * 128 + 1 * q.val = q.val; rw [e1]; omega
  show k0_pay1 (k0_pay2 (iblk0 V c 0 t)) (V c main_arg5 : S256x128.Idx → EReal) (ix2 p q)
    = prodArr (V c main_arg0) (V c main_arg5) (((cfg0.win 7).blk t).view.emb (ix2 p q))
  rw [hemb, pay1_apply]
  unfold prodArr GnnSpec.matRow
  refine Finset.sum_congr rfl fun k _ => ?_
  rw [iblk0_0_apply V c t p k ⟨1000 * t.val + p.val, by omega⟩ rfl]

/-- An index of the array is in point `t`'s block iff each coordinate is in the block's range on its axis. -/
theorem mem_blk0_7 (t : Fin cfg0.N) (i : S50000x128.Idx) :
    i ∈ ((cfg0.win 7).blk t).view.set
      ↔ ∀ a : Fin 2, win0_7.index t a * S1000x128.size a ≤ (i a).val
          ∧ (i a).val < win0_7.index t a * S1000x128.size a + S1000x128.size a := by
  show i ∈ ((View.whole main_v6_1).slice (win0_7.rect t)).set ↔ _
  rw [View.set_slice_whole, Rect.mem_set_unit]
  exact Iff.rfl

/-- Row `r` is in the block of point `r / 1000`. -/
theorem rows_cover0_7 (i : S50000x128.Idx) :
    ∃ t : Fin cfg0.N, (cfg0.win 7).flush t = true ∧ i ∈ ((cfg0.win 7).blk t).view.set := by
  have hi0 : (i 0).val < 50000 := (i 0).isLt
  have hi1 : (i 1).val < 128 := (i 1).isLt
  obtain ⟨t, ht⟩ : ∃ t : Fin cfg0.N, t.val = (i 0).val / 1000 :=
    ⟨⟨(i 0).val / 1000, lt_of_lt_of_eq (show (i 0).val / 1000 < 50 by omega) N_0.symm⟩, rfl⟩
  obtain ⟨-, -, -, -, -, -, -, -, -, -, -, -, -, -, e0, e1⟩ := idx_facts0 t
  refine ⟨t, flush0_7 t, ?_⟩
  rw [mem_blk0_7]
  intro a
  match a with
  | ⟨0, _⟩ =>
    show win0_7.index t (0 : Fin 2) * 1000 ≤ (i 0).val ∧ (i 0).val < win0_7.index t (0 : Fin 2) * 1000 + 1000
    rw [e0, ht]; omega
  | ⟨1, _⟩ =>
    show win0_7.index t (1 : Fin 2) * 128 ≤ (i 1).val ∧ (i 1).val < win0_7.index t (1 : Fin 2) * 128 + 128
    rw [e1]; omega

/-- The second product's array after the region. -/
theorem final0_7 (c : Dev nD) : (dat0 V c).arrAt 7 cfg0.N = prodArr (V c main_arg0) (V c main_arg5) :=
  (dat0 V c).arrAt_eq_of_cover 7 (prodArr (V c main_arg0) (V c main_arg5)) (fun t _ => flushed0_7_eq V c t) rows_cover0_7

/-- Entry `(r, q)` of the second product's array after the region: feature row `r` times column `q` of the
    second weight matrix. -/
theorem arr0_7 (c : Dev nD) (r : Fin 50000) (q : Fin 128) :
    ((dat0 V c).arrAt 7 cfg0.N : S50000x128.Idx → EReal) (ix2 r q)
      = GnnSpec.matRow (V c main_arg0) (V c main_arg5) r q := by
  rw [final0_7]; rfl

/-- The same with the two arrays the region finds named: whatever `X` and `W` they are. -/
theorem arr0_7_of (c : Dev nD) (r : Fin 50000) (q : Fin 128) (X : S50000x256.Idx → EReal) (W : S256x128.Idx → EReal)
    (hX : (V c main_arg0 : S50000x256.Idx → EReal) = X) (hW : (V c main_arg5 : S256x128.Idx → EReal) = W) :
    ((dat0 V c).arrAt 7 cfg0.N : S50000x128.Idx → EReal) (ix2 r q) = GnnSpec.matRow X W r q := by
  subst hX hW; exact arr0_7 V c r q

/-! ## The transformed features: window 6 -/

/-- The transformed features as one function of the whole arrays. -/
def featArr (X : S50000x256.Idx → EReal) (W : S256x128.Idx → EReal) (b s o : S1x128.Idx → EReal) :
    S50000x128.Idx → EReal :=
  fun i => GnnSpec.featRow (fun j => GnnSpec.matRow X W (i 0) j + b (ix2 (0 : Fin 1) j))
    (fun j => s (ix2 (0 : Fin 1) j)) (fun j => o (ix2 (0 : Fin 1) j)) (i 1)

/-- What point `t` writes back of the transformed features is rows `1000 t …` of that function. -/
theorem flushed0_6_eq (c : Dev nD) (t : Fin cfg0.N) :
    (dat0 V c).flushed 6 t
      = ((cfg0.win 6).blk t).view.read (Elt Ideal)
          (featArr (V c main_arg0) (V c main_arg1) (V c main_v0) (V c main_v1) (V c main_v2)) := by
  show (cfg0.win 6).cut (grid0.coords t) ((dat0 V c).after 6 t) = _
  rw [after0_6]
  unfold out0_6
  rw [View.canon_unit_zero zeros2]
  simp only [View.ld_unit_zero (S := S1000x256) zeros2, View.ld_unit_zero (S := S256x128) zeros2,
    View.ld_unit_zero (S := S1x128) zeros2]
  rw [iblk0_1_eq V c t, iblk0_2_eq V c t, iblk0_3_eq V c t, iblk0_4_eq V c t]
  have ht := lt50 t
  obtain ⟨-, -, -, -, -, -, -, -, -, -, -, -, e0, e1, -⟩ := idx_facts0 t
  funext j
  obtain ⟨p, q, rfl⟩ : ∃ (p : Fin 1000) (q : Fin 128), j = ix2 p q := ⟨j 0, j 1, eq_ix2 j⟩
  have hemb : (((cfg0.win 6).blk t).view.emb (ix2 p q) : S50000x128.Idx)
      = ix2 (⟨1000 * t.val + p.val, by omega⟩ : Fin 50000) q := by
    funext a; apply Fin.ext
    match a with
    | ⟨0, _⟩ => show win0_6.index t (0 : Fin 2) * 1000 + 1 * p.val = 1000 * t.val + p.val; rw [e0]; omega
    | ⟨1, _⟩ => show win0_6.index t (1 : Fin 2) * 128 + 1 * q.val = q.val; rw [e1]; omega
  show k0_pay3 (iblk0 V c 0 t) (V c main_arg1 : S256x128.Idx → EReal) (V c main_v0 : S1x128.Idx → EReal)
      (V c main_v1 : S1x128.Idx → EReal) (V c main_v2 : S1x128.Idx → EReal) (ix2 p q)
    = featArr (V c main_arg0) (V c main_arg1) (V c main_v0) (V c main_v1) (V c main_v2)
        (((cfg0.win 6).blk t).view.emb (ix2 p q))
  rw [hemb, pay3_apply]
  unfold featArr
  refine congrArg (fun h => GnnSpec.featRow h (fun j => (V c main_v1 : S1x128.Idx → EReal) (ix2 (0 : Fin 1) j))
    (fun j => (V c main_v2 : S1x128.Idx → EReal) (ix2 (0 : Fin 1) j)) q) (funext fun j => ?_)
  refine congrArg (fun z : EReal => z + (V c main_v0 : S1x128.Idx → EReal) (ix2 (0 : Fin 1) j)) ?_
  unfold GnnSpec.matRow
  refine Finset.sum_congr rfl fun k _ => ?_
  rw [iblk0_0_apply V c t p k ⟨1000 * t.val + p.val, by omega⟩ rfl]

/-- An index of the array is in point `t`'s block iff each coordinate is in the block's range on its axis. -/
theorem mem_blk0_6 (t : Fin cfg0.N) (i : S50000x128.Idx) :
    i ∈ ((cfg0.win 6).blk t).view.set
      ↔ ∀ a : Fin 2, win0_6.index t a * S1000x128.size a ≤ (i a).val
          ∧ (i a).val < win0_6.index t a * S1000x128.size a + S1000x128.size a := by
  show i ∈ ((View.whole main_v6_0).slice (win0_6.rect t)).set ↔ _
  rw [View.set_slice_whole, Rect.mem_set_unit]
  exact Iff.rfl

/-- Row `r` is in the block of point `r / 1000`. -/
theorem rows_cover0_6 (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ : ∃ t : Fin cfg0.N, t.val = (i 0).val / 1000 :=
    ⟨⟨(i 0).val / 1000, lt_of_lt_of_eq (show (i 0).val / 1000 < 50 by omega) N_0.symm⟩, rfl⟩
  obtain ⟨-, -, -, -, -, -, -, -, -, -, -, -, e0, e1, -⟩ := idx_facts0 t
  refine ⟨t, flush0_6 t, ?_⟩
  rw [mem_blk0_6]
  intro a
  match a with
  | ⟨0, _⟩ =>
    show win0_6.index t (0 : Fin 2) * 1000 ≤ (i 0).val ∧ (i 0).val < win0_6.index t (0 : Fin 2) * 1000 + 1000
    rw [e0, ht]; omega
  | ⟨1, _⟩ =>
    show win0_6.index t (1 : Fin 2) * 128 ≤ (i 1).val ∧ (i 1).val < win0_6.index t (1 : Fin 2) * 128 + 128
    rw [e1]; omega

/-- The transformed features' array after the region. -/
theorem final0_6 (c : Dev nD) :
    (dat0 V c).arrAt 6 cfg0.N = featArr (V c main_arg0) (V c main_arg1) (V c main_v0) (V c main_v1) (V c main_v2) :=
  (dat0 V c).arrAt_eq_of_cover 6 (featArr (V c main_arg0) (V c main_arg1) (V c main_v0) (V c main_v1) (V c main_v2))
    (fun t _ => flushed0_6_eq V c t) rows_cover0_6

/-- Entry `(r, q)` of the transformed features' array after the region: the feature transform of row `r`'s
    pre-activations (feature row `r` times the first weight matrix, plus the bias) at `q`. -/
theorem arr0_6 (c : Dev nD) (r : Fin 50000) (q : Fin 128) :
    ((dat0 V c).arrAt 6 cfg0.N : S50000x128.Idx → EReal) (ix2 r q)
      = GnnSpec.featRow (fun j => GnnSpec.matRow (V c main_arg0) (V c main_arg1) r j + (V c main_v0) (ix2 (0 : Fin 1) j))
          (fun j => (V c main_v1) (ix2 (0 : Fin 1) j)) (fun j => (V c main_v2) (ix2 (0 : Fin 1) j)) q := by
  rw [final0_6]; rfl

/-- The same with the five arrays the region finds named: whatever `X`, `W`, `b`, `s`, `o` they are. -/
theorem arr0_6_of (c : Dev nD) (r : Fin 50000) (q : Fin 128) (X : S50000x256.Idx → EReal) (W : S256x128.Idx → EReal)
    (b s o : S1x128.Idx → EReal)
    (hX : (V c main_arg0 : S50000x256.Idx → EReal) = X) (hW : (V c main_arg1 : S256x128.Idx → EReal) = W)
    (hb : (V c main_v0 : S1x128.Idx → EReal) = b) (hs : (V c main_v1 : S1x128.Idx → EReal) = s)
    (ho : (V c main_v2 : S1x128.Idx → EReal) = o) :
    ((dat0 V c).arrAt 6 cfg0.N : S50000x128.Idx → EReal) (ix2 r q)
      = GnnSpec.featRow (fun j => GnnSpec.matRow X W r j + b (ix2 (0 : Fin 1) j))
          (fun j => s (ix2 (0 : Fin 1) j)) (fun j => o (ix2 (0 : Fin 1) j)) q := by
  subst hX hW hb hs ho; exact arr0_6 V c r q

end Cert.KernelIdeal.Blocks

end
-- ==== Proof.KernBlocks1.lean ====
/-
  The second region's output array after its fifty grid points, for any contents `V` of the buffers when the
  region is entered.

  Point `t` reads rows `1000 t … 1000 t + 999` of the aggregated array and the bias, scale and offset rows whole,
  and writes back rows `1000 t … 1000 t + 999` of the output: the restriction to those rows of the function whose
  entry `(r, q)` is the feature transform of the row `j ↦ h (r, j) + b j` at `q`. Row `r` is written by point
  `r / 1000`, so the fifty blocks cover the array and it ends holding that function.
-/
import proofs.«170415_j34849364640474_2_alg».proof.Proof.Gen.KernelIdeal.Frame
import proofs.«170415_j34849364640474_2_alg».proof.Proof.KernPay
import Idealize.ShloMosaic.Lib.Pipeline.Value

noncomputable section

open scoped BigOperators

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zeros2' : (![0, 0] : Fin 2 → Nat) = fun _ => 0 := funext fun a => by fin_cases a <;> rfl

/-- The block indices over the grid: the aggregated array's window and the output window are at row block `t`,
    column block 0; the three row windows are at block (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem lt50' (t : Fin cfg1.N) : t.val < 50 := lt_of_lt_of_eq t.isLt N_1

/-! ## The input windows' blocks -/

/-- The aggregated array's block at point `t`, entry `(p, j)`, is the array at row `1000 t + p`. -/
theorem iblk1_0_apply (c : Dev nD) (t : Fin cfg1.N) (p : Fin 1000) (j : Fin 128) (r : Fin 50000)
    (hr : r.val = 1000 * t.val + p.val) :
    (iblk1 V c 0 t : Vec Ideal S1000x128 .f32) (ix2 p j) = (V c main_v21 : S50000x128.Idx → EReal) (ix2 r j) := by
  obtain ⟨e0, e1, -⟩ := idx_facts1 t
  unfold iblk1
  rw [View.read_apply]
  show (V c main_v21 : S50000x128.Idx → EReal) _ = _
  refine congrArg (V c main_v21 : S50000x128.Idx → EReal) ?_
  funext a; apply Fin.ext
  match a with
  | ⟨0, _⟩ => show win1_0.index t (0 : Fin 2) * 1000 + 1 * p.val = r.val; rw [e0, hr]; omega
  | ⟨1, _⟩ => show win1_0.index t (1 : Fin 2) * 128 + 1 * j.val = j.val; rw [e1]; omega

/-- The bias row's window is the whole row at every point. -/
theorem iblk1_1_eq (c : Dev nD) (t : Fin cfg1.N) :
    (iblk1 V c 1 t : Vec Ideal S1x128 .f32) = (V c main_v3 : S1x128.Idx → EReal) := by
  obtain ⟨-, -, e0, e1, -⟩ := idx_facts1 t
  unfold iblk1
  funext y
  rw [View.read_apply]
  show (V c main_v3 : S1x128.Idx → EReal) _ = _
  refine congrArg (V c main_v3 : S1x128.Idx → EReal) ?_
  funext a; apply Fin.ext
  match a with
  | ⟨0, _⟩ => show win1_1.index t (0 : Fin 2) * 1 + 1 * (y 0).val = (y 0).val; rw [e0]; omega
  | ⟨1, _⟩ => show win1_1.index t (1 : Fin 2) * 128 + 1 * (y 1).val = (y 1).val; rw [e1]; omega

/-- The scale row's window is the whole row at every point. -/
theorem iblk1_2_eq (c : Dev nD) (t : Fin cfg1.N) :
    (iblk1 V c 2 t : Vec Ideal S1x128 .f32) = (V c main_v4 : S1x128.Idx → EReal) := by
  obtain ⟨-, -, -, -, e0, e1, -⟩ := idx_facts1 t
  unfold iblk1
  funext y
  rw [View.read_apply]
  show (V c main_v4 : S1x128.Idx → EReal) _ = _
  refine congrArg (V c main_v4 : S1x128.Idx → EReal) ?_
  funext a; apply Fin.ext
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

/-- The offset row's window is the whole row at every point. -/
theorem iblk1_3_eq (c : Dev nD) (t : Fin cfg1.N) :
    (iblk1 V c 3 t : Vec Ideal S1x128 .f32) = (V c main_v5 : S1x128.Idx → EReal) := by
  obtain ⟨-, -, -, -, -, -, e0, e1, -⟩ := idx_facts1 t
  unfold iblk1
  funext y
  rw [View.read_apply]
  show (V c main_v5 : S1x128.Idx → EReal) _ = _
  refine congrArg (V c main_v5 : S1x128.Idx → EReal) ?_
  funext a; apply Fin.ext
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

/-! ## The transformed aggregate: window 4 -/

/-- The transformed aggregate as one function of the whole arrays. -/
def hopArr (H : S50000x128.Idx → EReal) (b s o : S1x128.Idx → EReal) : S50000x128.Idx → EReal :=
  fun i => GnnSpec.featRow (fun j => H (ix2 (i 0 : Fin 50000) j) + b (ix2 (0 : Fin 1) j))
    (fun j => s (ix2 (0 : Fin 1) j)) (fun j => o (ix2 (0 : Fin 1) j)) (i 1)

/-- What point `t` writes back is rows `1000 t …` of that function. -/
theorem flushed1_4_eq (c : Dev nD) (t : Fin cfg1.N) :
    (dat1 V c).flushed 4 t
      = ((cfg1.win 4).blk t).view.read (Elt Ideal)
          (hopArr (V c main_v21) (V c main_v3) (V c main_v4) (V c main_v5)) := by
  show (cfg1.win 4).cut (grid1.coords t) ((dat1 V c).after 4 t) = _
  rw [after1_4]
  unfold out1_4
  rw [View.canon_unit_zero zeros2']
  simp only [View.ld_unit_zero (S := S1000x128) zeros2', View.ld_unit_zero (S := S1x128) zeros2']
  rw [iblk1_1_eq V c t, iblk1_2_eq V c t, iblk1_3_eq V c t]
  have ht := lt50' t
  obtain ⟨-, -, -, -, -, -, -, -, e0, e1⟩ := idx_facts1 t
  funext j
  obtain ⟨p, q, rfl⟩ : ∃ (p : Fin 1000) (q : Fin 128), j = ix2 p q := ⟨j 0, j 1, eq_ix2 j⟩
  have hemb : (((cfg1.win 4).blk t).view.emb (ix2 p q) : S50000x128.Idx)
      = ix2 (⟨1000 * t.val + p.val, by omega⟩ : Fin 50000) q := by
    funext a; apply Fin.ext
    match a with
    | ⟨0, _⟩ => show win1_4.index t (0 : Fin 2) * 1000 + 1 * p.val = 1000 * t.val + p.val; rw [e0]; omega
    | ⟨1, _⟩ => show win1_4.index t (1 : Fin 2) * 128 + 1 * q.val = q.val; rw [e1]; omega
  show k1_pay1 (iblk1 V c 0 t) (V c main_v3 : S1x128.Idx → EReal) (V c main_v4 : S1x128.Idx → EReal)
      (V c main_v5 : S1x128.Idx → EReal) (ix2 p q)
    = hopArr (V c main_v21) (V c main_v3) (V c main_v4) (V c main_v5) (((cfg1.win 4).blk t).view.emb (ix2 p q))
  rw [hemb, pay1b_apply]
  unfold hopArr
  refine congrArg (fun h => GnnSpec.featRow h (fun j => (V c main_v4 : S1x128.Idx → EReal) (ix2 (0 : Fin 1) j))
    (fun j => (V c main_v5 : S1x128.Idx → EReal) (ix2 (0 : Fin 1) j)) q) (funext fun j => ?_)
  refine congrArg (fun z : EReal => z + (V c main_v3 : S1x128.Idx → EReal) (ix2 (0 : Fin 1) j)) ?_
  exact iblk1_0_apply V c t p j ⟨1000 * t.val + p.val, by omega⟩ rfl

/-- An index of the array is in point `t`'s block iff each coordinate is in the block's range on its axis. -/
theorem mem_blk1_4 (t : Fin cfg1.N) (i : S50000x128.Idx) :
    i ∈ ((cfg1.win 4).blk t).view.set
      ↔ ∀ a : Fin 2, win1_4.index t a * S1000x128.size a ≤ (i a).val
          ∧ (i a).val < win1_4.index t a * S1000x128.size a + S1000x128.size a := by
  show i ∈ ((View.whole main_v22).slice (win1_4.rect t)).set ↔ _
  rw [View.set_slice_whole, Rect.mem_set_unit]
  exact Iff.rfl

/-- Row `r` is in the block of point `r / 1000`. -/
theorem rows_cover1_4 (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ : ∃ t : Fin cfg1.N, t.val = (i 0).val / 1000 :=
    ⟨⟨(i 0).val / 1000, lt_of_lt_of_eq (show (i 0).val / 1000 < 50 by omega) N_1.symm⟩, rfl⟩
  obtain ⟨-, -, -, -, -, -, -, -, e0, e1⟩ := idx_facts1 t
  refine ⟨t, flush1_4 t, ?_⟩
  rw [mem_blk1_4]
  intro a
  match a with
  | ⟨0, _⟩ =>
    show win1_4.index t (0 : Fin 2) * 1000 ≤ (i 0).val ∧ (i 0).val < win1_4.index t (0 : Fin 2) * 1000 + 1000
    rw [e0, ht]; omega
  | ⟨1, _⟩ =>
    show win1_4.index t (1 : Fin 2) * 128 ≤ (i 1).val ∧ (i 1).val < win1_4.index t (1 : Fin 2) * 128 + 128
    rw [e1]; omega

/-- The output array after the region. -/
theorem final1_4 (c : Dev nD) :
    (dat1 V c).arrAt 4 cfg1.N = hopArr (V c main_v21) (V c main_v3) (V c main_v4) (V c main_v5) :=
  (dat1 V c).arrAt_eq_of_cover 4 (hopArr (V c main_v21) (V c main_v3) (V c main_v4) (V c main_v5))
    (fun t _ => flushed1_4_eq V c t) rows_cover1_4

/-- Row `r` of the transformed aggregate at `q`, from the whole arrays: the feature transform of the row
    `j ↦ h (r, j) + b j`. -/
def hopRow (H : S50000x128.Idx → EReal) (b s o : S1x128.Idx → EReal) (r : Fin 50000) (q : Fin 128) : EReal :=
  GnnSpec.featRow (fun j => H (ix2 r j) + b (ix2 (0 : Fin 1) j))
    (fun j => s (ix2 (0 : Fin 1) j)) (fun j => o (ix2 (0 : Fin 1) j)) q

/-- Entry `(r, q)` of the output array after the region: the feature transform of row `r` of the aggregated
    array plus the bias, at `q`. -/
theorem arr1_4 (c : Dev nD) (r : Fin 50000) (q : Fin 128) :
    ((dat1 V c).arrAt 4 cfg1.N : S50000x128.Idx → EReal) (ix2 r q)
      = hopRow (V c main_v21) (V c main_v3) (V c main_v4) (V c main_v5) r q := by
  rw [final1_4]; rfl

/-- The same with the four arrays the region finds named: whatever `H`, `b`, `s`, `o` they are. -/
theorem arr1_4_of (c : Dev nD) (r : Fin 50000) (q : Fin 128) (H : S50000x128.Idx → EReal) (b s o : S1x128.Idx → EReal)
    (hH : (V c main_v21 : S50000x128.Idx → EReal) = H) (hb : (V c main_v3 : S1x128.Idx → EReal) = b)
    (hs : (V c main_v4 : S1x128.Idx → EReal) = s) (ho : (V c main_v5 : S1x128.Idx → EReal) = o) :
    ((dat1 V c).arrAt 4 cfg1.N : S50000x128.Idx → EReal) (ix2 r q)
      = GnnSpec.featRow (fun j => H (ix2 r j) + b (ix2 (0 : Fin 1) j))
          (fun j => s (ix2 (0 : Fin 1) j)) (fun j => o (ix2 (0 : Fin 1) j)) q := by
  subst hH hb hs ho; exact arr1_4 V c r q

end Cert.KernelIdeal.Blocks

end
-- ==== Proof.SpecArr.lean ====
/-
  The two halves of the result as whole arrays of shape [50000, 128]: the entry at an index is the half's value at the
  index's two coordinates.
-/
import proofs.«170415_j34849364640474_2_alg».proof.Proof.Spec

noncomputable section

namespace Cert.GnnSpec

open Idealize.ShloMosaic Idealize.ShloMosaic.ValueIdx

/-- The first half as an array. -/
def half0Arr (X : (⟨2, ![50000, 256]⟩ : Shape).Idx → EReal) (W0 : (⟨2, ![256, 128]⟩ : Shape).Idx → EReal)
    (b0 s0 o0 : (⟨1, ![128]⟩ : Shape).Idx → EReal) : (⟨2, ![50000, 128]⟩ : Shape).Idx → EReal :=
  fun i => half0 X W0 b0 s0 o0 ⟨(i 0).val, idx2_lt0 i⟩ ⟨(i 1).val, idx2_lt1 i⟩

/-- The second half as an array. -/
def half1Arr (X : (⟨2, ![50000, 256]⟩ : Shape).Idx → EReal) (W1 : (⟨2, ![256, 128]⟩ : Shape).Idx → EReal)
    (b1 s1 o1 : (⟨1, ![128]⟩ : Shape).Idx → EReal) (row col : (⟨1, ![800000]⟩ : Shape).Idx → BitVec 32)
    (val : (⟨1, ![800000]⟩ : Shape).Idx → EReal) : (⟨2, ![50000, 128]⟩ : Shape).Idx → EReal :=
  fun i => half1 X W1 b1 s1 o1 row col val ⟨(i 0).val, idx2_lt0 i⟩ ⟨(i 1).val, idx2_lt1 i⟩

theorem half0Arr_apply (X W0 b0 s0 o0) (r : Fin 50000) (c : Fin 128) :
    half0Arr X W0 b0 s0 o0 (ix2 r c) = half0 X W0 b0 s0 o0 r c := rfl

theorem half1Arr_apply (X W1 b1 s1 o1 row col val) (r : Fin 50000) (c : Fin 128) :
    half1Arr X W1 b1 s1 o1 row col val (ix2 r c) = half1 X W1 b1 s1 o1 row col val r c := rfl

/-- The feature transform of a row depends only on the entries of its three argument rows. -/
theorem featRow_congr {h h' s s' o o' : Fin 128 → EReal} (q : Fin 128) (eh : ∀ j, h j = h' j) (es : ∀ j, s j = s' j)
    (eo : ∀ j, o j = o' j) : featRow h s o q = featRow h' s' o' q := by
  rw [funext eh, funext es, funext eo]

/-- An array of shape [50000, 128] is determined by its entries at the pairs of coordinates. -/
theorem ext_ix2 {f g : (⟨2, ![50000, 128]⟩ : Shape).Idx → EReal} (h : ∀ (r : Fin 50000) (c : Fin 128), f (ix2 r c) = g (ix2 r c)) : f = g := by
  funext i; rw [eq_ix2 i]; exact h _ _

end Cert.GnnSpec

end
-- ==== Proof.KernOut.lean ====
/-
  The idealized kernel program's result as a function of the launch contents.

  The first region's first output array is the feature transform of X·W0 + b0; its second output array holds the inner
  products of the feature rows with the columns of W1; the array the host aggregates from it is, at node r and feature j,
  the sum over the edges into r of the edge's value times that inner product at the edge's source row; the second region's
  output array is the feature transform of that aggregate plus b1. The result buffer holds the two side by side.
-/
import proofs.«170415_j34849364640474_2_alg».proof.Proof.KernGlue
import proofs.«170415_j34849364640474_2_alg».proof.Proof.KernBlocks0
import proofs.«170415_j34849364640474_2_alg».proof.Proof.KernBlocks1
import proofs.«170415_j34849364640474_2_alg».proof.Proof.SpecArr

set_option maxRecDepth 16384

noncomputable section

namespace Cert.KernelIdeal.Out

open Idealize.ShloMosaic Idealize.ShloMosaic.TcCoe Idealize.ShloMosaic.ValueIdx
open Idealize.SL.Sem
open Cert.KernelIdeal Cert.KernelIdeal.Gen Cert.KernelIdeal.Glue

variable (m : (ℓ : Loc nD τ sig) → Buf (Elt Ideal) ℓ) (ρ : Dev nD → PrngReg)

/-- The first region's first output array is the first half of the result, a function of the launch contents. -/
theorem half0 (c : Dev nD) :
    ((dat0 (V1 m ρ) c).arrAt 6 cfg0.N : S50000x128.Idx → EReal)
      = GnnSpec.half0Arr (m ((c : Thread nD τ).loc main_arg0)) (m ((c : Thread nD τ).loc main_arg1)) (m ((c : Thread nD τ).loc main_arg2))
          (m ((c : Thread nD τ).loc main_arg3)) (m ((c : Thread nD τ).loc main_arg4)) :=
  GnnSpec.ext_ix2 fun r q => by
    rw [Blocks.arr0_6 (V1 m ρ) c r q, GnnSpec.half0Arr_apply]
    unfold GnnSpec.half0
    rw [V1_arg0, V1_arg1]
    exact GnnSpec.featRow_congr q (fun j => by rw [V1_v0]) (V1_v1 m ρ c) (V1_v2 m ρ c)

/-- The first region's second output array at an entry: the inner product of a feature row with a column of the
    second weight matrix. -/
theorem prod1 (c : Dev nD) (i : Fin 50000) (k : Fin 128) :
    ((dat0 (V1 m ρ) c).arrAt 7 cfg0.N : S50000x128.Idx → EReal) (ix2 i k)
      = GnnSpec.matRow (m ((c : Thread nD τ).loc main_arg0)) (m ((c : Thread nD τ).loc main_arg5)) i k := by
  rw [Blocks.arr0_7 (V1 m ρ) c i k, V1_arg0, V1_arg5]

/-- The second region's output array is the second half of the result. -/
theorem half1 (c : Dev nD) :
    ((dat1 (V3 m ρ) c).arrAt 4 cfg1.N : S50000x128.Idx → EReal)
      = GnnSpec.half1Arr (m ((c : Thread nD τ).loc main_arg0)) (m ((c : Thread nD τ).loc main_arg5)) (m ((c : Thread nD τ).loc main_arg6))
          (m ((c : Thread nD τ).loc main_arg7)) (m ((c : Thread nD τ).loc main_arg8)) (m ((c : Thread nD τ).loc main_arg9))
          (m ((c : Thread nD τ).loc main_arg10)) (m ((c : Thread nD τ).loc main_arg11)) :=
  GnnSpec.ext_ix2 fun r q => by
    rw [Blocks.arr1_4 (V3 m ρ) c r q, GnnSpec.half1Arr_apply]
    unfold Blocks.hopRow GnnSpec.half1
    refine GnnSpec.featRow_congr q (fun j => ?_) (V3_v4 m ρ c) (V3_v5 m ρ c)
    rw [V3_v3, V3_v21, hopTerm_apply]
    simp only [prod1]

/-- The result buffer at the end of the run: the two halves side by side. -/
theorem result (c : Dev nD) :
    W5 m ρ c (Proc.devRef .tc main_v23)
      = concatenate S50000x256 1
          [⟨S50000x128, GnnSpec.half0Arr (m ((c : Thread nD τ).loc main_arg0)) (m ((c : Thread nD τ).loc main_arg1)) (m ((c : Thread nD τ).loc main_arg2))
              (m ((c : Thread nD τ).loc main_arg3)) (m ((c : Thread nD τ).loc main_arg4))⟩,
           ⟨S50000x128, GnnSpec.half1Arr (m ((c : Thread nD τ).loc main_arg0)) (m ((c : Thread nD τ).loc main_arg5)) (m ((c : Thread nD τ).loc main_arg6))
              (m ((c : Thread nD τ).loc main_arg7)) (m ((c : Thread nD τ).loc main_arg8)) (m ((c : Thread nD τ).loc main_arg9))
              (m ((c : Thread nD τ).loc main_arg10)) (m ((c : Thread nD τ).loc main_arg11))⟩]
          concatenates_S50000x128_S50000x128_S50000x256_d1 := by
  rw [result_eq, W4_v6_0, W4_v22, half0, half1]

end Cert.KernelIdeal.Out

end
-- ==== Proof.RefRun.lean ====
/-
  The run of the reference program. With its three called functions unfolded at their calls (the rectifier; the row
  variance; the selection inside the variance) its @main is a straight line of 119 host operations: `ops`.
  Every weakly fair execution of that line terminates, and the result buffer then holds `out` of the arguments'
  launch contents, the arguments unchanged. `out` is stated through three stage functions, each the composition of
  the printed pure operations in their printed order: `hop` (the sparse aggregation A·X), `dense` (X·W + b) and
  `featTrans` (rectify, then normalise each row by its mean and variance, scale and offset), so that
  out = [ featTrans (dense X W0 b0) s0 o0 | featTrans (dense (hop X) W1 b1) s1 o1 ].
-/
import proofs.«170415_j34849364640474_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The feature transform as the composition of the host operations in their printed order: the rectifier
    (maximum with the zero array), the row mean (row sum over 128), the row variance (mean of the squared
    centred entries, selected against a quiet NaN under the test 128 - 0 > 0), the centring, the scale,
    the reciprocal square root of variance plus epsilon, the offset. A function of the pre-activation
    and of scale and offset. -/
def featTrans (H : FVec F S50000x128 .f32) (s o : FVec F S128 .f32) : FVec F S50000x128 .f32 :=
  have r0 : FVec F S_ .f32 := constant S_ .f32 0x00000000#32
  have r1 : FVec F S50000x128 .f32 := broadcastInDim S50000x128 ![] bcast_S_S50000x128 r0
  have r : FVec F S50000x128 .f32 := maximumf H r1
  have m0 : FVec F S_ .f32 := constant S_ .f32 0x00000000#32
  have m1 : FVec F S50000 .f32 := Host.reduceAdd r m0 reducesTo_S50000x128_S50000_d1 h_S_
  have m2 : FVec F S50000x1 .f32 := broadcastInDim S50000x1 ![0] bcast_S50000_S50000x1_0 m1
  have m3 : FVec F S_ .f32 := constant S_ .f32 0x43000000#32
  have m4 : FVec F S50000x1 .f32 := broadcastInDim S50000x1 ![] bcast_S_S50000x1 m3
  have mean : FVec F S50000x1 .f32 := Host.divf m2 m4
  have dd : IVec S_ 32 := constantI S_ 32 0#32
  have q0 : FVec F S_ .f32 := constant S_ .f32 0x00000000#32
  have q1 : FVec F S50000 .f32 := Host.reduceAdd r q0 reducesTo_S50000x128_S50000_d1 h_S_
  have q2 : FVec F S50000x1 .f32 := broadcastInDim S50000x1 ![0] bcast_S50000_S50000x1_0 q1
  have q3 : FVec F S_ .f32 := constant S_ .f32 0x43000000#32
  have q4 : FVec F S50000x1 .f32 := broadcastInDim S50000x1 ![] bcast_S_S50000x1 q3
  have q5 : FVec F S50000x1 .f32 := Host.divf q2 q4
  have q6 : FVec F S50000x128 .f32 := broadcastInDim S50000x128 ![0, 1] bcast_S50000x1_S50000x128_0_1 q5
  have q7 : FVec F S50000x128 .f32 := subf r q6
  have q8 : FVec F S50000x128 .f32 := mulf q7 q7
  have q9 : FVec F S_ .f32 := sitofp .f32 dd
  have q10 : FVec F S_ .f32 := constant S_ .f32 0x43000000#32
  have q11 : FVec F S_ .f32 := subf q10 q9
  have q12 : FVec F S_ .f32 := constant S_ .f32 0x00000000#32
  have q13 : FVec F S50000 .f32 := Host.reduceAdd q8 q12 reducesTo_S50000x128_S50000_d1 h_S_
  have q14 : FVec F S50000x1 .f32 := broadcastInDim S50000x1 ![0] bcast_S50000_S50000x1_0 q13
  have q15 : FVec F S50000x1 .f32 := broadcastInDim S50000x1 ![] bcast_S_S50000x1 q11
  have q16 : FVec F S50000x1 .f32 := Host.divf q14 q15
  have q17 : FVec F S_ .f32 := constant S_ .f32 0x00000000#32
  have q18 : IVec S_ 1 := cmpf .ogt q11 q17
  have q19 : FVec F S_ .f32 := constant S_ .f32 0x7FC00000#32
  have w0 : FVec F S_ .f32 := id q19
  have w1 : FVec F S50000x1 .f32 := broadcastInDim S50000x1 ![] bcast_S_S50000x1 w0
  have var : FVec F S50000x1 .f32 := select (broadcastInDim S50000x1 ![] bcast_S_S50000x1 q18) q16 w1
  have e0 : FVec F S_ .f32 := constant S_ .f32 0x3089705F#32
  have e1 : FVec F S50000x1 .f32 := broadcastInDim S50000x1 ![] bcast_S_S50000x1 e0
  have e2 : FVec F S50000x1 .f32 := addf var e1
  have t0 : FVec F S50000x128 .f32 := broadcastInDim S50000x128 ![0, 1] bcast_S50000x1_S50000x128_0_1 mean
  have t1 : FVec F S50000x128 .f32 := subf r t0
  have t2 : FVec F S1x128 .f32 := broadcastInDim S1x128 ![1] bcast_S128_S1x128_1 s
  have t3 : FVec F S50000x128 .f32 := broadcastInDim S50000x128 ![0, 1] bcast_S1x128_S50000x128_0_1 t2
  have t4 : FVec F S50000x128 .f32 := mulf t1 t3
  have t5 : FVec F S50000x1 .f32 := Host.rsqrt e2
  have t6 : FVec F S50000x128 .f32 := broadcastInDim S50000x128 ![0, 1] bcast_S50000x1_S50000x128_0_1 t5
  have t7 : FVec F S50000x128 .f32 := mulf t4 t6
  have t8 : FVec F S1x128 .f32 := broadcastInDim S1x128 ![1] bcast_S128_S1x128_1 o
  have t9 : FVec F S50000x128 .f32 := broadcastInDim S50000x128 ![0, 1] bcast_S1x128_S50000x128_0_1 t8
  addf t7 t9

/-- The sparse aggregation: for each edge the source row (the column index wrapped once when negative, then
    gathered) times the edge value, added into the row the edge names, over a zero array. -/
def hop (X : FVec F S50000x256 .f32) (row col : IVec S800000 32) (val : FVec F S800000 .f32) : FVec F S50000x256 .f32 :=
  have v0 : FVec F S800000x1 .f32 := broadcastInDim S800000x1 ![0] bcast_S800000_S800000x1_0 val
  have c : IVec S_ 32 := constantI S_ 32 0#32
  have v1 : IVec S800000 32 := broadcastInDim S800000 ![] bcast_S_S800000 c
  have v2 : IVec S800000 1 := cmpi .slt col v1
  have c0 : IVec S_ 32 := constantI S_ 32 50000#32
  have v3 : IVec S800000 32 := broadcastInDim S800000 ![] bcast_S_S800000 c0
  have v4 : IVec S800000 32 := addi col v3
  have v5 : IVec S800000 32 := select v2 v4 col
  have v6 : IVec S800000x1 32 := broadcastInDim S800000x1 ![0] bcast_S800000_S800000x1_0 v5
  have v7 : FVec F S800000x256 .f32 := Host.gather gather_S50000x256_S800000x1_S800000x256_1_0_n_n_0_1_1256 X v6
  have v8 : FVec F S800000x256 .f32 := broadcastInDim S800000x256 ![0, 1] bcast_S800000x1_S800000x256_0_1 v0
  have v9 : FVec F S800000x256 .f32 := mulf v8 v7
  have z : FVec F S_ .f32 := constant S_ .f32 0x00000000#32
  have v10 : FVec F S50000x256 .f32 := broadcastInDim S50000x256 ![] bcast_S_S50000x256 z
  have v11 : IVec S800000x1 32 := broadcastInDim S800000x1 ![0] bcast_S800000_S800000x1_0 row
  Host.scatterAdd scatter_S50000x256_S800000x1_S800000x256_1_0_0_1 v10 v11 v9

/-- The pre-activation: the matrix product plus the bias row broadcast over the rows. -/
def dense (X : FVec F S50000x256 .f32) (W : FVec F S256x128 .f32) (b : FVec F S128 .f32) : FVec F S50000x128 .f32 :=
  have d0 : FVec F S50000x128 .f32 := Host.dotGeneral dot_S50000x256_S256x128_S50000x128_1_0_0_1_n_n none X W
  have d1 : FVec F S1x128 .f32 := broadcastInDim S1x128 ![1] bcast_S128_S1x128_1 b
  have d2 : FVec F S50000x128 .f32 := broadcastInDim S50000x128 ![0, 1] bcast_S1x128_S50000x128_0_1 d1
  addf d0 d2

/-- The program's value: the feature transform of the dense layer of the features beside the feature transform
    of the dense layer of the aggregated features, side by side along the columns. -/
def out (X : FVec F S50000x256 .f32) (W0 : FVec F S256x128 .f32) (b0 s0 o0 : FVec F S128 .f32)
    (W1 : FVec F S256x128 .f32) (b1 s1 o1 : FVec F S128 .f32) (row col : IVec S800000 32) (val : FVec F S800000 .f32) :
    FVec F S50000x256 .f32 :=
  concatenate S50000x256 1 [⟨S50000x128, featTrans (dense X W0 b0) s0 o0⟩, ⟨S50000x128, featTrans (dense (hop X row col val) W1 b1) s1 o1⟩]
    concatenates_S50000x128_S50000x128_S50000x256_d1

/-- The program's 119 host operations in order, each called function's operations listed at its call over that call's buffers. -/
abbrev ops : List (HloOp τ sig (Elt F)) :=
  [ unary main_arg11 main_v0 (broadcastInDim S800000x1 ![0] bcast_S800000_S800000x1_0 : (⟨S800000, .f32⟩ : BufTy).Contents (Elt F) → (⟨S800000x1, .f32⟩ : BufTy).Contents (Elt F)),
    nullary main_c (constantI S_ 32 0#32),
    unary main_c main_v1 (broadcastInDim S800000 ![] bcast_S_S800000 : (⟨S_, .i32⟩ : BufTy).Contents (Elt F) → (⟨S800000, .i32⟩ : BufTy).Contents (Elt F)),
    binary main_arg10 main_v1 main_v2 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v3 (broadcastInDim S800000 ![] bcast_S_S800000 : (⟨S_, .i32⟩ : BufTy).Contents (Elt F) → (⟨S800000, .i32⟩ : BufTy).Contents (Elt F)),
    binary main_arg10 main_v3 main_v4 (addi : (⟨S800000, .i32⟩ : BufTy).Contents (Elt F) → (⟨S800000, .i32⟩ : BufTy).Contents (Elt F) → (⟨S800000, .i32⟩ : BufTy).Contents (Elt F)),
    ternary main_v2 main_v4 main_arg10 main_v5 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v5 main_v6 (broadcastInDim S800000x1 ![0] bcast_S800000_S800000x1_0 : (⟨S800000, .i32⟩ : BufTy).Contents (Elt F) → (⟨S800000x1, .i32⟩ : BufTy).Contents (Elt F)),
    binary main_arg0 main_v6 main_v7 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    unary main_v0 main_v8 (broadcastInDim S800000x256 ![0, 1] bcast_S800000x1_S800000x256_0_1 : (⟨S800000x1, .f32⟩ : BufTy).Contents (Elt F) → (⟨S800000x256, .f32⟩ : BufTy).Contents (Elt F)),
    binary main_v8 main_v7 main_v9 (mulf : (⟨S800000x256, .f32⟩ : BufTy).Contents (Elt F) → (⟨S800000x256, .f32⟩ : BufTy).Contents (Elt F) → (⟨S800000x256, .f32⟩ : BufTy).Contents (Elt F)),
    nullary main_cst (constant S_ .f32 0x00000000#32),
    unary main_cst main_v10 (broadcastInDim S50000x256 ![] bcast_S_S50000x256 : (⟨S_, .f32⟩ : BufTy).Contents (Elt F) → (⟨S50000x256, .f32⟩ : BufTy).Contents (Elt F)),
    unary main_arg9 main_v11 (broadcastInDim S800000x1 ![0] bcast_S800000_S800000x1_0 : (⟨S800000, .i32⟩ : BufTy).Contents (Elt F) → (⟨S800000x1, .i32⟩ : BufTy).Contents (Elt F)),
    ternary main_v10 main_v11 main_v9 main_v12 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    binary main_arg0 main_arg1 main_v13 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg2 main_v14 (broadcastInDim S1x128 ![1] bcast_S128_S1x128_1 : (⟨S128, .f32⟩ : BufTy).Contents (Elt F) → (⟨S1x128, .f32⟩ : BufTy).Contents (Elt F)),
    unary main_v14 main_v15 (broadcastInDim S50000x128 ![0, 1] bcast_S1x128_S50000x128_0_1 : (⟨S1x128, .f32⟩ : BufTy).Contents (Elt F) → (⟨S50000x128, .f32⟩ : BufTy).Contents (Elt F)),
    binary main_v13 main_v15 main_v16 (addf : (⟨S50000x128, .f32⟩ : BufTy).Contents (Elt F) → (⟨S50000x128, .f32⟩ : BufTy).Contents (Elt F) → (⟨S50000x128, .f32⟩ : BufTy).Contents (Elt F)),
    TRef.nullary main_call0.cst (constant S_ .f32 0x00000000#32),
    TRef.unary main_call0.cst main_call0.v0 (broadcastInDim S50000x128 ![] bcast_S_S50000x128),
    TRef.binary (.of main_v16) main_call0.v0 main_call0.v1 maximumf,
    nullary main_cst_1 (constant S_ .f32 0x00000000#32),
    binary main_v17 main_cst_1 main_v18 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v18 main_v19 (broadcastInDim S50000x1 ![0] bcast_S50000_S50000x1_0 : (⟨S50000, .f32⟩ : BufTy).Contents (Elt F) → (⟨S50000x1, .f32⟩ : BufTy).Contents (Elt F)),
    nullary main_cst_2 (constant S_ .f32 0x43000000#32),
    unary main_cst_2 main_v20 (broadcastInDim S50000x1 ![] bcast_S_S50000x1 : (⟨S_, .f32⟩ : BufTy).Contents (Elt F) → (⟨S50000x1, .f32⟩ : BufTy).Contents (Elt F)),
    binary main_v19 main_v20 main_v21 (Host.divf : (⟨S50000x1, .f32⟩ : BufTy).Contents (Elt F) → (⟨S50000x1, .f32⟩ : BufTy).Contents (Elt F) → (⟨S50000x1, .f32⟩ : BufTy).Contents (Elt F)),
    nullary main_c_3 (constantI S_ 32 0#32),
    TRef.nullary main_call1.cst (constant S_ .f32 0x00000000#32),
    TRef.binary (.of main_v17) main_call1.cst main_call1.v0 (fun x v => Host.reduceAdd x v reducesTo_S50000x128_S50000_d1 h_S_),
    TRef.unary main_call1.v0 main_call1.v1 (broadcastInDim S50000x1 ![0] bcast_S50000_S50000x1_0),
    TRef.nullary main_call1.cst_0 (constant S_ .f32 0x43000000#32),
    TRef.unary main_call1.cst_0 main_call1.v2 (broadcastInDim S50000x1 ![] bcast_S_S50000x1),
    TRef.binary main_call1.v1 main_call1.v2 main_call1.v3 Host.divf,
    TRef.unary main_call1.v3 main_call1.v4 (broadcastInDim S50000x128 ![0, 1] bcast_S50000x1_S50000x128_0_1),
    TRef.binary (.of main_v17) main_call1.v4 main_call1.v5 subf,
    TRef.binary main_call1.v5 main_call1.v5 main_call1.v6 mulf,
    TRef.unary (.of main_c_3) main_call1.v7 (sitofp .f32),
    TRef.nullary main_call1.cst_1 (constant S_ .f32 0x43000000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S50000x128_S50000_d1 h_S_),
    TRef.unary main_call1.v9 main_call1.v10 (broadcastInDim S50000x1 ![0] bcast_S50000_S50000x1_0),
    TRef.unary main_call1.v8 main_call1.v11 (broadcastInDim S50000x1 ![] bcast_S_S50000x1),
    TRef.binary main_call1.v10 main_call1.v11 main_call1.v12 Host.divf,
    TRef.nullary main_call1.cst_3 (constant S_ .f32 0x00000000#32),
    TRef.binary main_call1.v8 main_call1.cst_3 main_call1.v13 (cmpf .ogt),
    TRef.nullary main_call1.cst_4 (constant S_ .f32 0x7FC00000#32),
    TRef.unary main_call1.cst_4 main_call1.call0.v0 id,
    TRef.unary main_call1.call0.v0 main_call1.call0.v1 (broadcastInDim S50000x1 ![] bcast_S_S50000x1),
    TRef.ternary main_call1.v13 main_call1.v12 main_call1.call0.v1 main_call1.call0.v2 (fun p a b => select (broadcastInDim S50000x1 ![] bcast_S_S50000x1 p) a b),
    nullary main_cst_4 (constant S_ .f32 0x3089705F#32),
    unary main_cst_4 main_v23 (broadcastInDim S50000x1 ![] bcast_S_S50000x1 : (⟨S_, .f32⟩ : BufTy).Contents (Elt F) → (⟨S50000x1, .f32⟩ : BufTy).Contents (Elt F)),
    binary main_v22 main_v23 main_v24 (addf : (⟨S50000x1, .f32⟩ : BufTy).Contents (Elt F) → (⟨S50000x1, .f32⟩ : BufTy).Contents (Elt F) → (⟨S50000x1, .f32⟩ : BufTy).Contents (Elt F)),
    unary main_v21 main_v25 (broadcastInDim S50000x128 ![0, 1] bcast_S50000x1_S50000x128_0_1 : (⟨S50000x1, .f32⟩ : BufTy).Contents (Elt F) → (⟨S50000x128, .f32⟩ : BufTy).Contents (Elt F)),
    binary main_v17 main_v25 main_v26 (subf : (⟨S50000x128, .f32⟩ : BufTy).Contents (Elt F) → (⟨S50000x128, .f32⟩ : BufTy).Contents (Elt F) → (⟨S50000x128, .f32⟩ : BufTy).Contents (Elt F)),
    unary main_arg3 main_v27 (broadcastInDim S1x128 ![1] bcast_S128_S1x128_1 : (⟨S128, .f32⟩ : BufTy).Contents (Elt F) → (⟨S1x128, .f32⟩ : BufTy).Contents (Elt F)),
    unary main_v27 main_v28 (broadcastInDim S50000x128 ![0, 1] bcast_S1x128_S50000x128_0_1 : (⟨S1x128, .f32⟩ : BufTy).Contents (Elt F) → (⟨S50000x128, .f32⟩ : BufTy).Contents (Elt F)),
    binary main_v26 main_v28 main_v29 (mulf : (⟨S50000x128, .f32⟩ : BufTy).Contents (Elt F) → (⟨S50000x128, .f32⟩ : BufTy).Contents (Elt F) → (⟨S50000x128, .f32⟩ : BufTy).Contents (Elt F)),
    unary main_v24 main_v30 (Host.rsqrt : (⟨S50000x1, .f32⟩ : BufTy).Contents (Elt F) → (⟨S50000x1, .f32⟩ : BufTy).Contents (Elt F)),
    unary main_v30 main_v31 (broadcastInDim S50000x128 ![0, 1] bcast_S50000x1_S50000x128_0_1 : (⟨S50000x1, .f32⟩ : BufTy).Contents (Elt F) → (⟨S50000x128, .f32⟩ : BufTy).Contents (Elt F)),
    binary main_v29 main_v31 main_v32 (mulf : (⟨S50000x128, .f32⟩ : BufTy).Contents (Elt F) → (⟨S50000x128, .f32⟩ : BufTy).Contents (Elt F) → (⟨S50000x128, .f32⟩ : BufTy).Contents (Elt F)),
    unary main_arg4 main_v33 (broadcastInDim S1x128 ![1] bcast_S128_S1x128_1 : (⟨S128, .f32⟩ : BufTy).Contents (Elt F) → (⟨S1x128, .f32⟩ : BufTy).Contents (Elt F)),
    unary main_v33 main_v34 (broadcastInDim S50000x128 ![0, 1] bcast_S1x128_S50000x128_0_1 : (⟨S1x128, .f32⟩ : BufTy).Contents (Elt F) → (⟨S50000x128, .f32⟩ : BufTy).Contents (Elt F)),
    binary main_v32 main_v34 main_v35 (addf : (⟨S50000x128, .f32⟩ : BufTy).Contents (Elt F) → (⟨S50000x128, .f32⟩ : BufTy).Contents (Elt F) → (⟨S50000x128, .f32⟩ : BufTy).Contents (Elt F)),
    binary main_v12 main_arg5 main_v36 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg6 main_v37 (broadcastInDim S1x128 ![1] bcast_S128_S1x128_1 : (⟨S128, .f32⟩ : BufTy).Contents (Elt F) → (⟨S1x128, .f32⟩ : BufTy).Contents (Elt F)),
    unary main_v37 main_v38 (broadcastInDim S50000x128 ![0, 1] bcast_S1x128_S50000x128_0_1 : (⟨S1x128, .f32⟩ : BufTy).Contents (Elt F) → (⟨S50000x128, .f32⟩ : BufTy).Contents (Elt F)),
    binary main_v36 main_v38 main_v39 (addf : (⟨S50000x128, .f32⟩ : BufTy).Contents (Elt F) → (⟨S50000x128, .f32⟩ : BufTy).Contents (Elt F) → (⟨S50000x128, .f32⟩ : BufTy).Contents (Elt F)),
    TRef.nullary main_call2.cst (constant S_ .f32 0x00000000#32),
    TRef.unary main_call2.cst main_call2.v0 (broadcastInDim S50000x128 ![] bcast_S_S50000x128),
    TRef.binary (.of main_v39) main_call2.v0 main_call2.v1 maximumf,
    nullary main_cst_5 (constant S_ .f32 0x00000000#32),
    binary main_v40 main_cst_5 main_v41 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v41 main_v42 (broadcastInDim S50000x1 ![0] bcast_S50000_S50000x1_0 : (⟨S50000, .f32⟩ : BufTy).Contents (Elt F) → (⟨S50000x1, .f32⟩ : BufTy).Contents (Elt F)),
    nullary main_cst_6 (constant S_ .f32 0x43000000#32),
    unary main_cst_6 main_v43 (broadcastInDim S50000x1 ![] bcast_S_S50000x1 : (⟨S_, .f32⟩ : BufTy).Contents (Elt F) → (⟨S50000x1, .f32⟩ : BufTy).Contents (Elt F)),
    binary main_v42 main_v43 main_v44 (Host.divf : (⟨S50000x1, .f32⟩ : BufTy).Contents (Elt F) → (⟨S50000x1, .f32⟩ : BufTy).Contents (Elt F) → (⟨S50000x1, .f32⟩ : BufTy).Contents (Elt F)),
    nullary main_c_7 (constantI S_ 32 0#32),
    TRef.nullary main_call3.cst (constant S_ .f32 0x00000000#32),
    TRef.binary (.of main_v40) main_call3.cst main_call3.v0 (fun x v => Host.reduceAdd x v reducesTo_S50000x128_S50000_d1 h_S_),
    TRef.unary main_call3.v0 main_call3.v1 (broadcastInDim S50000x1 ![0] bcast_S50000_S50000x1_0),
    TRef.nullary main_call3.cst_0 (constant S_ .f32 0x43000000#32),
    TRef.unary main_call3.cst_0 main_call3.v2 (broadcastInDim S50000x1 ![] bcast_S_S50000x1),
    TRef.binary main_call3.v1 main_call3.v2 main_call3.v3 Host.divf,
    TRef.unary main_call3.v3 main_call3.v4 (broadcastInDim S50000x128 ![0, 1] bcast_S50000x1_S50000x128_0_1),
    TRef.binary (.of main_v40) main_call3.v4 main_call3.v5 subf,
    TRef.binary main_call3.v5 main_call3.v5 main_call3.v6 mulf,
    TRef.unary (.of main_c_7) main_call3.v7 (sitofp .f32),
    TRef.nullary main_call3.cst_1 (constant S_ .f32 0x43000000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S50000x128_S50000_d1 h_S_),
    TRef.unary main_call3.v9 main_call3.v10 (broadcastInDim S50000x1 ![0] bcast_S50000_S50000x1_0),
    TRef.unary main_call3.v8 main_call3.v11 (broadcastInDim S50000x1 ![] bcast_S_S50000x1),
    TRef.binary main_call3.v10 main_call3.v11 main_call3.v12 Host.divf,
    TRef.nullary main_call3.cst_3 (constant S_ .f32 0x00000000#32),
    TRef.binary main_call3.v8 main_call3.cst_3 main_call3.v13 (cmpf .ogt),
    TRef.nullary main_call3.cst_4 (constant S_ .f32 0x7FC00000#32),
    TRef.unary main_call3.cst_4 main_call3.call0.v0 id,
    TRef.unary main_call3.call0.v0 main_call3.call0.v1 (broadcastInDim S50000x1 ![] bcast_S_S50000x1),
    TRef.ternary main_call3.v13 main_call3.v12 main_call3.call0.v1 main_call3.call0.v2 (fun p a b => select (broadcastInDim S50000x1 ![] bcast_S_S50000x1 p) a b),
    nullary main_cst_8 (constant S_ .f32 0x3089705F#32),
    unary main_cst_8 main_v46 (broadcastInDim S50000x1 ![] bcast_S_S50000x1 : (⟨S_, .f32⟩ : BufTy).Contents (Elt F) → (⟨S50000x1, .f32⟩ : BufTy).Contents (Elt F)),
    binary main_v45 main_v46 main_v47 (addf : (⟨S50000x1, .f32⟩ : BufTy).Contents (Elt F) → (⟨S50000x1, .f32⟩ : BufTy).Contents (Elt F) → (⟨S50000x1, .f32⟩ : BufTy).Contents (Elt F)),
    unary main_v44 main_v48 (broadcastInDim S50000x128 ![0, 1] bcast_S50000x1_S50000x128_0_1 : (⟨S50000x1, .f32⟩ : BufTy).Contents (Elt F) → (⟨S50000x128, .f32⟩ : BufTy).Contents (Elt F)),
    binary main_v40 main_v48 main_v49 (subf : (⟨S50000x128, .f32⟩ : BufTy).Contents (Elt F) → (⟨S50000x128, .f32⟩ : BufTy).Contents (Elt F) → (⟨S50000x128, .f32⟩ : BufTy).Contents (Elt F)),
    unary main_arg7 main_v50 (broadcastInDim S1x128 ![1] bcast_S128_S1x128_1 : (⟨S128, .f32⟩ : BufTy).Contents (Elt F) → (⟨S1x128, .f32⟩ : BufTy).Contents (Elt F)),
    unary main_v50 main_v51 (broadcastInDim S50000x128 ![0, 1] bcast_S1x128_S50000x128_0_1 : (⟨S1x128, .f32⟩ : BufTy).Contents (Elt F) → (⟨S50000x128, .f32⟩ : BufTy).Contents (Elt F)),
    binary main_v49 main_v51 main_v52 (mulf : (⟨S50000x128, .f32⟩ : BufTy).Contents (Elt F) → (⟨S50000x128, .f32⟩ : BufTy).Contents (Elt F) → (⟨S50000x128, .f32⟩ : BufTy).Contents (Elt F)),
    unary main_v47 main_v53 (Host.rsqrt : (⟨S50000x1, .f32⟩ : BufTy).Contents (Elt F) → (⟨S50000x1, .f32⟩ : BufTy).Contents (Elt F)),
    unary main_v53 main_v54 (broadcastInDim S50000x128 ![0, 1] bcast_S50000x1_S50000x128_0_1 : (⟨S50000x1, .f32⟩ : BufTy).Contents (Elt F) → (⟨S50000x128, .f32⟩ : BufTy).Contents (Elt F)),
    binary main_v52 main_v54 main_v55 (mulf : (⟨S50000x128, .f32⟩ : BufTy).Contents (Elt F) → (⟨S50000x128, .f32⟩ : BufTy).Contents (Elt F) → (⟨S50000x128, .f32⟩ : BufTy).Contents (Elt F)),
    unary main_arg8 main_v56 (broadcastInDim S1x128 ![1] bcast_S128_S1x128_1 : (⟨S128, .f32⟩ : BufTy).Contents (Elt F) → (⟨S1x128, .f32⟩ : BufTy).Contents (Elt F)),
    unary main_v56 main_v57 (broadcastInDim S50000x128 ![0, 1] bcast_S1x128_S50000x128_0_1 : (⟨S1x128, .f32⟩ : BufTy).Contents (Elt F) → (⟨S50000x128, .f32⟩ : BufTy).Contents (Elt F)),
    binary main_v55 main_v57 main_v58 (addf : (⟨S50000x128, .f32⟩ : BufTy).Contents (Elt F) → (⟨S50000x128, .f32⟩ : BufTy).Contents (Elt F) → (⟨S50000x128, .f32⟩ : BufTy).Contents (Elt F)),
    binary main_v35 main_v58 main_v59 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)) ]

set_option maxRecDepth 4096 in
/-- The program is that straight line: the called functions unfolded at their calls and the sequencing reassociated. -/
theorem main_eq (c : Dev nD) : main (F := F) c = seq ops := by
  simp only [main, main_part0, main_part1, fn_relu.body, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., unary_bufs_sub .., binary_bufs_sub .., nullary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub ..⟩

set_option maxRecDepth 8192 in
set_option maxHeartbeats 4000000 in
/-- What the result buffer holds after the line: each operation's result read at its own buffer, the other
    buffers passed over, down to the arguments; the composed term is `out` of the arguments' contents. -/
theorem out_eq (V : Valuation τ sig (Elt F)) :
    after ops V (main_v59 : DevRef τ sig) = out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  after_results_simp
  rfl

section Arguments
set_option maxRecDepth 8192
set_option maxHeartbeats 4000000

/-! No operation of the line writes an argument's buffer. -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

theorem arg8_eq (V : Valuation τ sig (Elt F)) :
    after ops V (main_arg8 : DevRef τ sig) = V (main_arg8 : DevRef τ sig) := by
  after_results_simp

theorem arg9_eq (V : Valuation τ sig (Elt F)) :
    after ops V (main_arg9 : DevRef τ sig) = V (main_arg9 : DevRef τ sig) := by
  after_results_simp

theorem arg10_eq (V : Valuation τ sig (Elt F)) :
    after ops V (main_arg10 : DevRef τ sig) = V (main_arg10 : DevRef τ sig) := by
  after_results_simp

theorem arg11_eq (V : Valuation τ sig (Elt F)) :
    after ops V (main_arg11 : DevRef τ sig) = V (main_arg11 : DevRef τ sig) := by
  after_results_simp

end Arguments

/-- On every device, for any float values, from any memory with zero counters: every weakly fair execution of
    the program terminates with the result buffer at `out` of the arguments' launch contents and the arguments
    unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v59) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c main_v59).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _)⟩)
    (run_seq scopedRefs_eq scopedSems_eq defs main (fun _ => ops) main_eq (fun _ => ops_sub) m ρ)

end Cert.ReferenceIdeal.RefRun

end
-- ==== Proof.RefRead.lean ====
/-
  The reference's three stage functions read at one entry, at the ideal values. The pre-activation at (r, q) is the
  inner product of row r of the features with column q of the weights plus the bias at q; the sparse aggregation at
  (r, k) is the sum over the edges into node r of the edge value times entry k of the source node's row; the feature
  transform at (r, q) clips row r of the pre-activations below at zero and normalises it: the entry less the row mean,
  times the scale, times the reciprocal square root of the row variance plus a small constant, plus the offset. The
  variance's divisor is spelled 128 − (the integer 0 converted) and guarded by the test that it is positive, with a
  quiet NaN in the other branch: the converted zero is 0, the test holds since 128 > 0, so the quotient branch is
  taken and the divisor is 128. A row sum starts from the zero word, which is 0.
-/
import proofs.«170415_j34849364640474_2_alg».proof.Proof.RefRun
import proofs.«170415_j34849364640474_2_alg».proof.Proof.Spec
import proofs.«170415_j34849364640474_2_alg».proof.Proof.LibMatDot
import proofs.«170415_j34849364640474_2_alg».proof.Proof.HopRead
import Idealize.ShloMosaic.Lib.IdealHost
import Idealize.ShloMosaic.Lib.KernelVsHost
import Idealize.ShloMosaic.PureOps.Ideal.Laws

noncomputable section

open scoped BigOperators

namespace Cert.ReferenceIdeal.RefRead

open Cert.ReferenceIdeal Cert.ReferenceIdeal.Gen Idealize.ShloMosaic Idealize.ShloMosaic.ValueIdx

/-- The word of 128 denotes the real number 128. -/
theorem ofBits_128 : Ideal.ofBits .f32 0x43000000#32 = ((128 : ℝ) : EReal) := by
  simp [Ideal.ofBits, Ideal.ieee, -EReal.coe_mul]; norm_num

/-- The host's reciprocal square root at an index is the ideal one of the element. -/
theorem hostRsqrt_apply {s : Shape} {φ : FTy} (a : FVec Ideal s φ) (i : s.Idx) : Host.rsqrt a i = Ideal.rsqrt (a i) := rfl

/-- A row sum of a [50000, 128] array: the initial value plus the sum of the row's 128 entries. -/
theorem rowSum_apply (x : FVec Ideal S50000x128 .f32) (init : FVec Ideal S_ .f32)
    (hr : S50000x128.ReducesTo [1] S50000) (hu : 0 < S_.numel) (a : Fin 50000) :
    Host.reduceAdd x init hr hu (ix1 a) = init ix0 + ∑ k : Fin 128, x (ix2 a k) := by
  have h : S50000x128.Reduces [1] S50000 := by decide
  rw [hostReduceAdd_apply, Ideal.hostReduceAdd_single hr h]
  refine congrArg₂ (· + ·) (congrArg init (funext fun d => d.elim0)) ?_
  show ∑ k : Fin 128, x (h.lift (ix1 a) k) = _
  refine Finset.sum_congr rfl fun k _ => congrArg x ?_
  funext ax
  match ax with
  | ⟨0, _⟩ => exact Fin.ext rfl
  | ⟨1, _⟩ => exact Fin.ext rfl

/-- The pre-activation at entry (r, q): the inner product of row r of X with column q of W, plus the bias at q. -/
theorem dense_apply (X : FVec Ideal S50000x256 .f32) (W : FVec Ideal S256x128 .f32) (b : FVec Ideal S128 .f32)
    (r : Fin 50000) (q : Fin 128) :
    RefRun.dense (F := Ideal) X W b (ix2 r q) = GnnSpec.matRow X W r q + b (ix1 q) := by
  show Host.dotGeneral dot_S50000x256_S256x128_S50000x128_1_0_0_1_n_n none X W (ix2 r q)
      + broadcastInDim S50000x128 ![0, 1] bcast_S1x128_S50000x128_0_1 (broadcastInDim S1x128 ![1] bcast_S128_S1x128_1 b) (ix2 r q) = _
  refine congrArg₂ (· + ·) ?_ ?_
  · exact Lib.MatDot.dotGeneral_apply _ none X W r q
  · exact Lib.MatDot.broadcastInDim_vec_rows_apply _ _ b r q

/-- The sparse aggregation at entry (r, k): the sum over the edges into node r of the edge value times entry k of the
    source node's row. -/
theorem hop_apply (X : FVec Ideal S50000x256 .f32) (row col : IVec S800000 32) (val : FVec Ideal S800000 .f32)
    (r : Fin 50000) (k : Fin 256) :
    RefRun.hop (F := Ideal) X row col val (ix2 r k) = GnnSpec.spmm row col val (fun i k' => X (ix2 i k')) r k :=
  Cert.HopRead.hop_apply _ _ _ _ _ _ X row col val r k

section Stages

variable (x : FVec Ideal S50000x128 .f32) (r : Fin 50000) (u : Fin 1)

/-- The rectified array at an entry is the entry clipped below at zero. -/
theorem relu_apply (H : FVec Ideal S50000x128 .f32) (j : Fin 128) :
    maximumf H (broadcastInDim S50000x128 ![] bcast_S_S50000x128 (constant (F := Ideal) S_ .f32 0x00000000#32)) (ix2 r j)
      = GnnSpec.clip (H (ix2 r j)) := by
  show max (H (ix2 r j)) (broadcastInDim S50000x128 ![] bcast_S_S50000x128 (constant (F := Ideal) S_ .f32 0x00000000#32) (ix2 r j))
      = max (H (ix2 r j)) GnnSpec.z0
  exact congrArg (max (H (ix2 r j))) ((broadcastInDim_scalar_apply _ _ _).trans rfl)

/-- The column of row means at row `r`: the row's sum over 128. -/
theorem meanCol_apply :
    Host.divf (broadcastInDim S50000x1 ![0] bcast_S50000_S50000x1_0
        (Host.reduceAdd x (constant (F := Ideal) S_ .f32 0x00000000#32) reducesTo_S50000x128_S50000_d1 h_S_))
      (broadcastInDim S50000x1 ![] bcast_S_S50000x1 (constant (F := Ideal) S_ .f32 0x43000000#32)) (ix2 r u)
      = GnnSpec.rowMean (fun j => x (ix2 r j)) := by
  show Ideal.div _ _ = Ideal.div _ GnnSpec.c128
  refine congrArg₂ Ideal.div ?_ ((broadcastInDim_scalar_apply _ _ _).trans rfl)
  refine (HopRead.broadcastInDim_vec_col_apply _ _ r u).trans ((rowSum_apply _ _ _ _ r).trans ?_)
  show Ideal.ofBits .f32 0x00000000#32 + _ = _
  rw [Ideal.ofBits_zero_f32, zero_add]

/-- The divisor of the variance, 128 minus the converted integer zero, is 128. -/
theorem divisor_eq :
    subf (constant (F := Ideal) S_ .f32 0x43000000#32) (sitofp .f32 (constantI S_ 32 0#32)) ix0 = GnnSpec.c128 := by
  show Ideal.ofBits .f32 0x43000000#32 - (Scalar.sitofp .f32 0#32 : Ideal .f32) = GnnSpec.c128
  rw [sitofp_zero, sub_zero]; rfl

/-- The test "the divisor is positive" holds. -/
theorem divisor_pos :
    cmpf .ogt (subf (constant (F := Ideal) S_ .f32 0x43000000#32) (sitofp .f32 (constantI S_ 32 0#32)))
      (constant (F := Ideal) S_ .f32 0x00000000#32) ix0 = 1#1 := by
  show Ideal.cmp .ogt (subf (constant (F := Ideal) S_ .f32 0x43000000#32) (sitofp .f32 (constantI S_ 32 0#32)) ix0)
      (Ideal.ofBits .f32 0x00000000#32) = 1#1
  rw [divisor_eq, Ideal.ofBits_zero_f32]
  unfold GnnSpec.c128
  rw [ofBits_128]
  have h : (0 : EReal) < ((128 : ℝ) : EReal) := by exact_mod_cast (by norm_num : (0 : ℝ) < 128)
  simp [Ideal.cmp, h]

/-- The column of row variances at row `r`: the selection takes the quotient branch, the sum of the squared
    deviations from the row mean over 128. -/
theorem varCol_apply :
    select (broadcastInDim S50000x1 ![] bcast_S_S50000x1
        (cmpf .ogt (subf (constant (F := Ideal) S_ .f32 0x43000000#32) (sitofp .f32 (constantI S_ 32 0#32)))
          (constant (F := Ideal) S_ .f32 0x00000000#32)))
      (Host.divf
        (broadcastInDim S50000x1 ![0] bcast_S50000_S50000x1_0
          (Host.reduceAdd
            (mulf
              (subf x (broadcastInDim S50000x128 ![0, 1] bcast_S50000x1_S50000x128_0_1
                (Host.divf (broadcastInDim S50000x1 ![0] bcast_S50000_S50000x1_0
                    (Host.reduceAdd x (constant (F := Ideal) S_ .f32 0x00000000#32) reducesTo_S50000x128_S50000_d1 h_S_))
                  (broadcastInDim S50000x1 ![] bcast_S_S50000x1 (constant (F := Ideal) S_ .f32 0x43000000#32)))))
              (subf x (broadcastInDim S50000x128 ![0, 1] bcast_S50000x1_S50000x128_0_1
                (Host.divf (broadcastInDim S50000x1 ![0] bcast_S50000_S50000x1_0
                    (Host.reduceAdd x (constant (F := Ideal) S_ .f32 0x00000000#32) reducesTo_S50000x128_S50000_d1 h_S_))
                  (broadcastInDim S50000x1 ![] bcast_S_S50000x1 (constant (F := Ideal) S_ .f32 0x43000000#32))))))
            (constant (F := Ideal) S_ .f32 0x00000000#32) reducesTo_S50000x128_S50000_d1 h_S_))
        (broadcastInDim S50000x1 ![] bcast_S_S50000x1
          (subf (constant (F := Ideal) S_ .f32 0x43000000#32) (sitofp .f32 (constantI S_ 32 0#32)))))
      (broadcastInDim S50000x1 ![] bcast_S_S50000x1 (constant (F := Ideal) S_ .f32 0x7FC00000#32)) (ix2 r u)
      = GnnSpec.rowVar (fun j => x (ix2 r j)) := by
  refine (select_apply _ _ _ _).trans ?_
  rw [broadcastInDim_scalar_apply, divisor_pos, select_one]
  show Ideal.div _ _ = Ideal.div _ GnnSpec.c128
  refine congrArg₂ Ideal.div ?_ ((broadcastInDim_scalar_apply _ _ _).trans divisor_eq)
  refine (HopRead.broadcastInDim_vec_col_apply _ _ r u).trans ((rowSum_apply _ _ _ _ r).trans ?_)
  show Ideal.ofBits .f32 0x00000000#32 + _ = _
  rw [Ideal.ofBits_zero_f32, zero_add]
  refine Finset.sum_congr rfl fun k _ => ?_
  have hm := (Lib.MatDot.broadcastInDim_col_apply bcast_S50000x1_S50000x128_0_1 _ r k).trans (meanCol_apply x r 0)
  show (x (ix2 r k) - _) * (x (ix2 r k) - _) = _
  rw [hm]

end Stages

/-- The feature transform at entry (r, q): the row of pre-activations clipped below at zero, then normalised by its
    mean and variance, scaled and offset. -/
theorem featTrans_apply (H : FVec Ideal S50000x128 .f32) (s o : FVec Ideal S128 .f32) (r : Fin 50000) (q : Fin 128) :
    RefRun.featTrans (F := Ideal) H s o (ix2 r q)
      = GnnSpec.featRow (fun j => H (ix2 r j)) (fun j => s (ix1 j)) (fun j => o (ix1 j)) q := by
  have hx : (fun j => maximumf H (broadcastInDim S50000x128 ![] bcast_S_S50000x128 (constant (F := Ideal) S_ .f32 0x00000000#32)) (ix2 r j))
      = fun j => GnnSpec.clip (H (ix2 r j)) := funext fun j => relu_apply r H j
  unfold RefRun.featTrans GnnSpec.featRow GnnSpec.normRow
  simp only [addf_apply, mulf_apply, subf_apply]
  refine congrArg₂ (· + ·) (congrArg₂ (· * ·) (congrArg₂ (· * ·) (congrArg₂ (· - ·) ?_ ?_) ?_) ?_) ?_
  · exact relu_apply r H q
  · exact ((Lib.MatDot.broadcastInDim_col_apply _ _ r q).trans (meanCol_apply _ r 0)).trans (congrArg GnnSpec.rowMean hx)
  · exact Lib.MatDot.broadcastInDim_vec_rows_apply _ _ s r q
  · refine (Lib.MatDot.broadcastInDim_col_apply _ _ r q).trans ?_
    show Ideal.rsqrt (_ + _) = _
    refine congrArg Ideal.rsqrt (congrArg₂ (· + ·) ((varCol_apply _ r 0).trans (congrArg GnnSpec.rowVar hx)) ?_)
    exact (broadcastInDim_scalar_apply _ _ _).trans rfl
  · exact Lib.MatDot.broadcastInDim_vec_rows_apply _ _ o r q

end Cert.ReferenceIdeal.RefRead

end
-- ==== Proof.SpmmLaw.lean ====
/-
  The one algebraic law behind the equivalence: a weighted sum of rows followed by a matrix product is the
  weighted sum of the rows' products, (Σ_e v e · Y e) · W = Σ_e v e · (Y e · W), entry by entry. On the extended
  reals multiplication does not distribute over addition at the infinities, so the law is stated for finite
  entries (each one the image of a real number): the sums are then computed in the reals, where it is the
  exchange of two finite sums.
-/
import Mathlib.Data.EReal.Inv
import Mathlib.Algebra.BigOperators.Group.Finset.Basic
import Mathlib.Algebra.BigOperators.Ring.Finset
import Mathlib.Tactic.Ring

noncomputable section

open scoped BigOperators

namespace Cert.SpmmLaw

/-- The embedding of the reals in the extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real that is neither infinity is a real number. -/
theorem exists_real_of_ne {x : EReal} (h1 : x ≠ ⊤) (h2 : x ≠ ⊥) : ∃ a : ℝ, x = a :=
  ⟨x.toReal, (EReal.coe_toReal h1 h2).symm⟩

/-- THE LAW: for finite weights `v`, rows `Y e` and matrix column `W`, the product of the weighted sum of rows
    with `W` is the weighted sum of the rows' products with `W`. -/
theorem sum_mul_eq {E K : Type} [Fintype K] [DecidableEq E] (S : Finset E) (v : E → EReal) (Y : E → K → EReal)
    (W : K → EReal) (hv : ∀ e, ∃ a : ℝ, v e = (a : EReal)) (hY : ∀ e k, ∃ a : ℝ, Y e k = (a : EReal))
    (hW : ∀ k, ∃ a : ℝ, W k = (a : EReal)) :
    ∑ k, (∑ e ∈ S, v e * Y e k) * W k = ∑ e ∈ S, v e * ∑ k, Y e k * W k := by
  choose v' hv' using hv
  choose Y' hY' using hY
  choose W' hW' using hW
  obtain rfl : v = fun e => (v' e : EReal) := funext hv'
  obtain rfl : Y = fun e k => (Y' e k : EReal) := funext fun e => funext fun k => hY' e k
  obtain rfl : W = fun k => (W' k : EReal) := funext hW'
  simp only [← EReal.coe_mul, ← coe_sum]
  refine congrArg _ ?_
  simp only [Finset.sum_mul, Finset.mul_sum]
  rw [Finset.sum_comm]
  refine Finset.sum_congr rfl fun e _ => Finset.sum_congr rfl fun k _ => ?_
  ring

/-- The same law with the zero an accumulating scatter starts from in front of both sums over `S`. -/
theorem zero_add_sum_mul_eq {E K : Type} [Fintype K] [DecidableEq E] (S : Finset E) (v : E → EReal)
    (Y : E → K → EReal) (W : K → EReal) (hv : ∀ e, ∃ a : ℝ, v e = (a : EReal))
    (hY : ∀ e k, ∃ a : ℝ, Y e k = (a : EReal)) (hW : ∀ k, ∃ a : ℝ, W k = (a : EReal)) :
    ∑ k, (0 + ∑ e ∈ S, v e * Y e k) * W k = 0 + ∑ e ∈ S, v e * ∑ k, Y e k * W k := by
  simp only [zero_add]
  exact sum_mul_eq S v Y W hv hY hW

end Cert.SpmmLaw

end
-- ==== Proof.HalfLaw.lean ====
/-
  The two spellings of the second half of the result agree when the features, the weights and the edge values are
  finite: aggregating the feature rows and then multiplying by the weights, (A·X)·W1, is aggregating the rows of the
  product, A·(X·W1). Row by row and entry by entry this is the exchange of the sum over the edges with the sum over
  the 256 contracted coordinates; it is the one place where finiteness is used, since multiplication on the extended
  reals does not distribute over addition at the infinities.
-/
import Idealize.ShloMosaic.PureOps.Ideal
import Idealize.ShloMosaic.PureOps.Ideal.Laws
import Idealize.ShloMosaic.Lib.ValueIdx
import proofs.«170415_j34849364640474_2_alg».proof.Proof.Spec
import proofs.«170415_j34849364640474_2_alg».proof.Proof.SpmmLaw

noncomputable section

open scoped BigOperators

namespace Cert.HalfLaw

open Idealize.ShloMosaic Idealize.ShloMosaic.ValueIdx

/-- The pre-activations of the second half agree: at node `r` and feature `j`, the aggregated feature row times
    column `j` of the weights is the aggregation of the products' entries `(·, j)`. -/
theorem pre_eq (X : (⟨2, ![50000, 256]⟩ : Shape).Idx → EReal) (W1 : (⟨2, ![256, 128]⟩ : Shape).Idx → EReal)
    (row col : (⟨1, ![800000]⟩ : Shape).Idx → BitVec 32) (val : (⟨1, ![800000]⟩ : Shape).Idx → EReal)
    (hX : ∀ i, ∃ a : ℝ, X i = (a : EReal)) (hW : ∀ i, ∃ a : ℝ, W1 i = (a : EReal))
    (hv : ∀ i, ∃ a : ℝ, val i = (a : EReal)) (r : Fin 50000) (j : Fin 128) :
    (∑ k : Fin 256, GnnSpec.spmm row col val (fun i k' => X (ix2 i k')) r k * W1 (ix2 k j))
      = GnnSpec.spmm row col val (fun i k => GnnSpec.matRow X W1 i k) r j := by
  unfold GnnSpec.spmm GnnSpec.matRow
  have hz : GnnSpec.z0 = 0 := Ideal.ofBits_zero_f32
  rw [hz]
  exact SpmmLaw.zero_add_sum_mul_eq _ (fun e => val (ix1 e))
    (fun e k => X (ix2 (GnnSpec.srcRow (col (ix1 e))) k)) (fun k => W1 (ix2 k j))
    (fun e => hv _) (fun e k => hX _) (fun k => hW _)

/-- THE SECOND HALF, both ways: for finite features, weights and edge values the two spellings are equal. -/
theorem half1'_eq_half1 (X : (⟨2, ![50000, 256]⟩ : Shape).Idx → EReal) (W1 : (⟨2, ![256, 128]⟩ : Shape).Idx → EReal)
    (b1 s1 o1 : (⟨1, ![128]⟩ : Shape).Idx → EReal)
    (row col : (⟨1, ![800000]⟩ : Shape).Idx → BitVec 32) (val : (⟨1, ![800000]⟩ : Shape).Idx → EReal)
    (hX : ∀ i, ∃ a : ℝ, X i = (a : EReal)) (hW : ∀ i, ∃ a : ℝ, W1 i = (a : EReal))
    (hv : ∀ i, ∃ a : ℝ, val i = (a : EReal)) (r : Fin 50000) (c : Fin 128) :
    GnnSpec.half1' X W1 b1 s1 o1 row col val r c = GnnSpec.half1 X W1 b1 s1 o1 row col val r c := by
  unfold GnnSpec.half1' GnnSpec.half1
  refine congrArg (fun h => GnnSpec.featRow h (fun j => s1 (ix1 j)) (fun j => o1 (ix1 j)) c) (funext fun j => ?_)
  exact congrArg (· + b1 (ix1 j)) (pre_eq X W1 row col val hX hW hv r j)

end Cert.HalfLaw

end
-- ==== Proof.RefOut.lean ====
/-
  The reference program's value as the two halves side by side. Its result is the concatenation along the columns of
  the feature transform of the dense layer of the features and the feature transform of the dense layer of the
  aggregated features. Entry by entry the first array is the first half of the specification; the second array is
  the second half in the spelling (A·X)·W1, which for finite features, weights and edge values is the spelling
  A·(X·W1). The concatenation itself is never opened: the two arrays inside it are replaced by equal ones.
-/
import proofs.«170415_j34849364640474_2_alg».proof.Proof.RefRun
import proofs.«170415_j34849364640474_2_alg».proof.Proof.RefRead
import proofs.«170415_j34849364640474_2_alg».proof.Proof.HalfLaw
import proofs.«170415_j34849364640474_2_alg».proof.Proof.SpecArr

noncomputable section

open scoped BigOperators

namespace Cert.RefOut

open Cert.ReferenceIdeal Cert.ReferenceIdeal.Gen Idealize.ShloMosaic Idealize.ShloMosaic.ValueIdx

/-- The first array: the feature transform of the dense layer of the features is the first half. -/
theorem first_eq (X : FVec Ideal S50000x256 .f32) (W0 : FVec Ideal S256x128 .f32) (b0 s0 o0 : FVec Ideal S128 .f32) :
    RefRun.featTrans (F := Ideal) (RefRun.dense X W0 b0) s0 o0 = GnnSpec.half0Arr X W0 b0 s0 o0 :=
  GnnSpec.ext_ix2 fun r c => by
    rw [RefRead.featTrans_apply, GnnSpec.half0Arr_apply]
    unfold GnnSpec.half0
    refine congrArg (fun h => GnnSpec.featRow h (fun j => s0 (ix1 j)) (fun j => o0 (ix1 j)) c) (funext fun j => ?_)
    exact RefRead.dense_apply X W0 b0 r j

/-- The second array: the feature transform of the dense layer of the aggregated features is the second half, for
    finite features, weights and edge values. -/
theorem second_eq (X : FVec Ideal S50000x256 .f32) (W1 : FVec Ideal S256x128 .f32) (b1 s1 o1 : FVec Ideal S128 .f32)
    (row col : IVec S800000 32) (val : FVec Ideal S800000 .f32)
    (hX : ∀ i, ∃ a : ℝ, X i = (a : EReal)) (hW : ∀ i, ∃ a : ℝ, W1 i = (a : EReal)) (hv : ∀ i, ∃ a : ℝ, val i = (a : EReal)) :
    RefRun.featTrans (F := Ideal) (RefRun.dense (RefRun.hop X row col val) W1 b1) s1 o1
      = GnnSpec.half1Arr X W1 b1 s1 o1 row col val :=
  GnnSpec.ext_ix2 fun r c => by
    rw [RefRead.featTrans_apply, GnnSpec.half1Arr_apply, ← HalfLaw.half1'_eq_half1 X W1 b1 s1 o1 row col val hX hW hv r c]
    unfold GnnSpec.half1'
    refine congrArg (fun h => GnnSpec.featRow h (fun j => s1 (ix1 j)) (fun j => o1 (ix1 j)) c) (funext fun j => ?_)
    rw [RefRead.dense_apply]
    unfold GnnSpec.matRow
    refine congrArg (· + b1 (ix1 j)) (Finset.sum_congr rfl fun k _ => ?_)
    rw [RefRead.hop_apply]

/-- THE REFERENCE'S VALUE: the two halves of the specification side by side. -/
theorem out_eq (X : FVec Ideal S50000x256 .f32) (W0 : FVec Ideal S256x128 .f32) (b0 s0 o0 : FVec Ideal S128 .f32)
    (W1 : FVec Ideal S256x128 .f32) (b1 s1 o1 : FVec Ideal S128 .f32) (row col : IVec S800000 32) (val : FVec Ideal S800000 .f32)
    (hX : ∀ i, ∃ a : ℝ, X i = (a : EReal)) (hW : ∀ i, ∃ a : ℝ, W1 i = (a : EReal)) (hv : ∀ i, ∃ a : ℝ, val i = (a : EReal)) :
    RefRun.out (F := Ideal) X W0 b0 s0 o0 W1 b1 s1 o1 row col val
      = concatenate S50000x256 1 [⟨S50000x128, GnnSpec.half0Arr X W0 b0 s0 o0⟩,
          ⟨S50000x128, GnnSpec.half1Arr X W1 b1 s1 o1 row col val⟩] concatenates_S50000x128_S50000x128_S50000x256_d1 := by
  unfold RefRun.out
  rw [first_eq X W0 b0 s0 o0, second_eq X W1 b1 s1 o1 row col val hX hW hv]

end Cert.RefOut

end
-- ==== Proof.Finite.lean ====
/-
  From the precondition to real entries. The precondition is the conjunction, array by array, of "every entry's absolute
  value compares below positive infinity"; an extended real whose absolute value is below the top element is a real
  number. Only three arrays' finiteness is used later: the features, the second weight matrix and the edge values.
-/
import proofs.«170415_j34849364640474_2_alg».proof.Defs
import proofs.«170415_j34849364640474_2_alg».proof.Proof.Gen.Pre_finite_inputs
import Idealize.ShloMosaic.Lib.ReduceAll
import Idealize.ShloMosaic.Lib.ValueIdx
import Idealize.ShloMosaic.Lib.IdealHost
import Idealize.ShloMosaic.PureOps.Ideal.Laws

noncomputable section

namespace Cert.Finite

open Idealize.ShloMosaic Idealize.ShloMosaic.ValueIdx

instance : Subsingleton (⟨0, ![]⟩ : Shape).Idx := ⟨fun a b => funext fun d => d.elim0⟩

/-- The word of positive infinity denotes the top element. -/
theorem ofBits_inf : Ideal.ofBits .f32 0x7F800000#32 = (⊤ : EReal) := by
  simp [Ideal.ofBits, Ideal.ieee]

/-- An extended real whose absolute value is below the top element is a real number. -/
theorem real_of_abs_lt_top (x : EReal) (h : max x (-x) < ⊤) : ∃ a : ℝ, x = (a : EReal) := by
  induction x using EReal.rec with
  | bot => simp at h
  | coe a => exact ⟨a, rfl⟩
  | top => simp at h

/-- An array all of whose entries compare below positive infinity in absolute value holds real numbers. -/
theorem real_of_all {s : Shape} {axes : List (Fin s.rank)} (a : FVec Ideal s .f32) (h : s.ReducesTo axes ⟨0, ![]⟩)
    (hu : 0 < (⟨0, ![]⟩ : Shape).numel) (hb : (⟨0, ![]⟩ : Shape).BroadcastsInDim s (![] : Fin 0 → Fin s.rank))
    (e : Host.reduce IntOp.andi (cmpf .olt (Host.absf a) (broadcastInDim s ![] hb (constant (F := Ideal) ⟨0, ![]⟩ .f32 0x7F800000#32)))
          (constantI ⟨0, ![]⟩ 1 1#1) h hu ix0 = 1#1) (i : s.Idx) : ∃ x : ℝ, a i = (x : EReal) := by
  have hi := Host.reduce_andi_all _ _ h hu ix0 e i
  refine real_of_abs_lt_top (a i) ?_
  have h2 : Ideal.cmp .olt (max (a i) (-(a i))) (Ideal.ofBits .f32 0x7F800000#32) = 1#1 := hi
  rw [ofBits_inf] at h2
  by_contra hc
  simp [Ideal.cmp, hc] at h2

/-- Under the precondition the features, the second weight matrix and the edge values hold real numbers. -/
theorem finite_of_pre [Cert.Pre_finite_inputs.Facts]
    (a0 : FVec Ideal Cert.Pre_finite_inputs.S50000x256 .f32) (a1 : FVec Ideal Cert.Pre_finite_inputs.S256x128 .f32)
    (a2 a3 a4 : FVec Ideal Cert.Pre_finite_inputs.S128 .f32) (a5 : FVec Ideal Cert.Pre_finite_inputs.S256x128 .f32)
    (a6 a7 a8 : FVec Ideal Cert.Pre_finite_inputs.S128 .f32) (a9 a10 : IVec Cert.Pre_finite_inputs.S800000 32)
    (a11 : FVec Ideal Cert.Pre_finite_inputs.S800000 .f32)
    (h : Cert.Pre_finite_inputs.fn (F := Ideal) a0 a1 a2 a3 a4 a5 a6 a7 a8 a9 a10 a11 = fun _ => 1#1) :
    (∀ i, ∃ x : ℝ, a0 i = (x : EReal)) ∧ (∀ i, ∃ x : ℝ, a5 i = (x : EReal)) ∧ (∀ i, ∃ x : ℝ, a11 i = (x : EReal)) := by
  have h0 := congrFun h ix0
  dsimp only [Cert.Pre_finite_inputs.fn, Cert.Pre_finite_inputs.fn_part1, Cert.Pre_finite_inputs.fn_part2] at h0
  obtain ⟨h9, e11⟩ := IntOp.andi_eq_one.1 h0
  obtain ⟨h8, e8⟩ := IntOp.andi_eq_one.1 h9
  obtain ⟨h7, e7⟩ := IntOp.andi_eq_one.1 h8
  obtain ⟨h6, e6⟩ := IntOp.andi_eq_one.1 h7
  obtain ⟨h5, e5⟩ := IntOp.andi_eq_one.1 h6
  obtain ⟨h4, e4⟩ := IntOp.andi_eq_one.1 h5
  obtain ⟨h3, e3⟩ := IntOp.andi_eq_one.1 h4
  obtain ⟨h2, e2⟩ := IntOp.andi_eq_one.1 h3
  obtain ⟨e0, e1⟩ := IntOp.andi_eq_one.1 h2
  exact ⟨real_of_all a0 _ _ _ e0, real_of_all a5 _ _ _ e5, real_of_all a11 _ _ _ e11⟩

end Cert.Finite

end
-- ==== Proof.lean ====
/-
  The certificate's five claims.

  Both programs compute, for node features X [50000, 256], weights W0, W1 [256, 128], biases, scales and offsets [128]
  and a sparse adjacency given by 800000 edges (row index, column index, value), the array [50000, 256] whose left half
  is the feature transform of X·W0 + b0 and whose right half is the feature transform of the aggregated second product
  plus b1 — the feature transform of a row being: clip below at zero, subtract the row's mean, multiply by the scale and
  by the reciprocal square root of the row's variance plus a small constant, add the offset. The kernel program multiplies
  first and aggregates second, A·(X·W1); the reference aggregates first and multiplies second, (A·X)·W1. On the extended
  reals the two agree when the features, the second weight matrix and the edge values are real numbers, which the
  precondition gives: a finite sum of products of reals may be taken in either order. Every other step is the same
  function entry by entry on both sides: the matrix products are sums over the contracted coordinate, the roundings to a
  shorter float format and back are the identity, the gather reads the row at the clamped prepared column index, the
  accumulating scatter adds into node r the updates of the edges whose signed row index is r.

  The three frames: the two kernel programs' are the frame certificates of their two regions and three stretches of host
  operations; the reference's is its run with the result dropped. The idealization rewrote nothing, so its claim is trivial.
-/
import proofs.«170415_j34849364640474_2_alg».proof.Defs
import proofs.«170415_j34849364640474_2_alg».proof.Proof.Gen.Kernel
import proofs.«170415_j34849364640474_2_alg».proof.Proof.Gen.Kernel.Skeleton
import proofs.«170415_j34849364640474_2_alg».proof.Proof.Gen.Kernel.Launch
import proofs.«170415_j34849364640474_2_alg».proof.Proof.Gen.Kernel.Points
import proofs.«170415_j34849364640474_2_alg».proof.Proof.Gen.Kernel.Frame
import proofs.«170415_j34849364640474_2_alg».proof.Proof.Gen.KernelIdeal
import proofs.«170415_j34849364640474_2_alg».proof.Proof.Gen.KernelIdeal.Skeleton
import proofs.«170415_j34849364640474_2_alg».proof.Proof.Gen.KernelIdeal.Launch
import proofs.«170415_j34849364640474_2_alg».proof.Proof.Gen.KernelIdeal.Points
import proofs.«170415_j34849364640474_2_alg».proof.Proof.Gen.KernelIdeal.Frame
import proofs.«170415_j34849364640474_2_alg».proof.Proof.Gen.ReferenceIdeal
import proofs.«170415_j34849364640474_2_alg».proof.Proof.Gen.Pre_finite_inputs
import proofs.«170415_j34849364640474_2_alg».proof.Proof.KernOut
import proofs.«170415_j34849364640474_2_alg».proof.Proof.RefOut
import proofs.«170415_j34849364640474_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run ends with its arguments as launched. -/
theorem frame_ri : Cert.frame_ReferenceIdeal := fun m ρ _ =>
  (θ_run Cert.ReferenceIdeal.defs _ _).mono (fun _ h c => (h c).2) (Cert.ReferenceIdeal.RefRun.run (F := Ideal) m ρ)

/-- Both runs end with the result buffer at the two halves side by side, as functions of the launch contents; the
    memories agree on the arguments, so the results are equal. -/
theorem algebraic : Cert.algebraic_KernelIdeal_ReferenceIdeal := by
  intro m ρ m' ρ' hpre hagree
  refine ⟨fun c => concatenate Cert.KernelIdeal.S50000x256 1
      [⟨Cert.KernelIdeal.S50000x128, GnnSpec.half0Arr (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4))⟩,
       ⟨Cert.KernelIdeal.S50000x128, GnnSpec.half1Arr (m ((c : Thread Cert.KernelIdeal.nD Cert.KernelIdeal.τ).loc Cert.KernelIdeal.main_arg0))
          (m ((c : Thread Cert.KernelIdeal.nD Cert.KernelIdeal.τ).loc Cert.KernelIdeal.main_arg5))
          (m ((c : Thread Cert.KernelIdeal.nD Cert.KernelIdeal.τ).loc Cert.KernelIdeal.main_arg6))
          (m ((c : Thread Cert.KernelIdeal.nD Cert.KernelIdeal.τ).loc Cert.KernelIdeal.main_arg7))
          (m ((c : Thread Cert.KernelIdeal.nD Cert.KernelIdeal.τ).loc Cert.KernelIdeal.main_arg8))
          (m ((c : Thread Cert.KernelIdeal.nD Cert.KernelIdeal.τ).loc Cert.KernelIdeal.main_arg9))
          (m ((c : Thread Cert.KernelIdeal.nD Cert.KernelIdeal.τ).loc Cert.KernelIdeal.main_arg10))
          (m ((c : Thread Cert.KernelIdeal.nD Cert.KernelIdeal.τ).loc Cert.KernelIdeal.main_arg11))⟩]
      Cert.KernelIdeal.Facts₀.concatenates_S50000x128_S50000x128_S50000x256_d1, ?_, ?_⟩
  · exact (θ_run Cert.KernelIdeal.defs _ _).mono
      (fun r h c => ⟨(h c).1.trans (Cert.KernelIdeal.Out.result m ρ c), (h c).2⟩) (Cert.KernelIdeal.Gen.run_result m ρ)
  · refine (θ_run Cert.ReferenceIdeal.defs _ _).mono (fun r h c => ⟨(h c).1.trans ?_, (h c).2⟩)
      (Cert.ReferenceIdeal.RefRun.run (F := Ideal) m' ρ')
    obtain ⟨e0, e1, e2, e3, e4, e5, e6, e7, e8, e9, e10, e11⟩ := hagree c
    obtain ⟨hX, hW, hv⟩ := Cert.Finite.finite_of_pre _ _ _ _ _ _ _ _ _ _ _ _ (hpre c)
    rw [e0, e1, e2, e3, e4, e5, e6, e7, e8, e9, e10, e11]
    exact Cert.RefOut.out_eq _ _ _ _ _ _ _ _ _ _ _ _ hX hW hv

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
